-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S4096x8 : Shape := ⟨2, ![4096, 8]⟩
abbrev S8x4096 : Shape := ⟨2, ![8, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8 : S_.BroadcastsInDim S4096x8 (![] : Fin 0 → Fin S4096x8.rank)
  reducesTo_S4096x8_S_d0_1 : S4096x8.ReducesTo [0, 1] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S8x4096 .f32 := Host.absf main_arg4
  let main_cst_6 : FVec F S_ .f32 := constant S_ .f32 0x7F800000#32
  let main_v20 : FVec F S8x4096 .f32 := broadcastInDim S8x4096 ![] bcast_S_S8x4096 main_cst_6
  let main_v21 : IVec S8x4096 1 := cmpf .olt main_v19 main_v20
  let main_c_7 : IVec S_ 1 := constantI S_ 1 1#1
  let main_v22 : IVec S_ 1 := (fun x v => Host.reduce IntOp.andi x v reducesTo_S8x4096_S_d0_1 h_S_) main_v21 main_c_7
  let main_v23 : IVec S_ 1 := andi main_v18 main_v22
  main_v23

def fn {F : FTy → Type} [FloatOps F] (main_arg0 : FVec F S2x2048x4096 .f32) (main_arg1 : FVec F S4096x4096 .f32) (main_arg2 : FVec F S4096 .f32) (main_arg3 : FVec F S4096x8 .f32) (main_arg4 : FVec F S8x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Kernel.lean ====
abbrev S2x2048x4096 : Shape := ⟨3, ![2, 2048, 4096]⟩
abbrev S4096x4096 : Shape := ⟨2, ![4096, 4096]⟩
abbrev S4096 : Shape := ⟨1, ![4096]⟩
abbrev S4096x8 : Shape := ⟨2, ![4096, 8]⟩
abbrev S8x4096 : Shape := ⟨2, ![8, 4096]⟩
abbrev S512x8 : Shape := ⟨2, ![512, 8]⟩
abbrev S512x2048 : Shape := ⟨2, ![512, 2048]⟩
abbrev S8x2048 : Shape := ⟨2, ![8, 2048]⟩
abbrev S2048x1024 : Shape := ⟨2, ![2048, 1024]⟩
abbrev S2048x8 : Shape := ⟨2, ![2048, 8]⟩
abbrev S8x1024 : Shape := ⟨2, ![8, 1024]⟩
abbrev S1x4096 : Shape := ⟨2, ![1, 4096]⟩
abbrev S1024x1024 : Shape := ⟨2, ![1024, 1024]⟩
abbrev S1x2048 : Shape := ⟨2, ![1, 2048]⟩
abbrev S1024x2048 : Shape := ⟨2, ![1024, 2048]⟩

abbrev nBuf : Space → Nat
  | .hbm => 11
  | .vmem => 24
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S8x4096, .f32⟩
  | .hbm, ⟨5, _⟩ => ⟨S8x4096, .f32⟩
  | .hbm, ⟨6, _⟩ => ⟨S4096x4096, .bf16⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S2x2048x4096, .f32⟩
  | .local _ .vmem, ⟨0, _⟩ => ⟨S512x8, .f32⟩
  | .local _ .vmem, ⟨1, _⟩ => ⟨S512x8, .f32⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S8x2048, .f32⟩
  | .local _ .vmem, ⟨6, _⟩ => ⟨S2048x1024, .f32⟩
  | .local _ .vmem, ⟨7, _⟩ => ⟨S2048x1024, .f32⟩
  | .local _ .vmem, ⟨8, _⟩ => ⟨S2048x8, .f32⟩
  | .local _ .vmem, ⟨9, _⟩ => ⟨S2048x8, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S2048x1024, .bf16⟩
  | .local _ .vmem, ⟨15, _⟩ => ⟨S2048x1024, .bf16⟩
  | .local _ .vmem, ⟨16, _⟩ => ⟨S1024x1024, .f32⟩
  | .local _ .vmem, ⟨17, _⟩ => ⟨S1024x1024, .f32⟩
  | .local _ .vmem, ⟨18, _⟩ => ⟨S2048x1024, .bf16⟩
  | .local _ .vmem, ⟨19, _⟩ => ⟨S2048x1024, .bf16⟩
  | .local _ .vmem, ⟨20, _⟩ => ⟨S1x2048, .f32⟩
  | .local _ .vmem, ⟨21, _⟩ => ⟨S1x2048, .f32⟩
  | .local _ .vmem, ⟨22, _⟩ => ⟨S1024x2048, .f32⟩
  | .local _ .vmem, ⟨23, _⟩ => ⟨S1024x2048, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨3, ![4, 2, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  inb_S8x2048_S8x2048_0_0 : ∀ a, (![0, 0] : Fin 2 → Nat) a + S8x2048.size a ≤ S8x2048.size a
  h_S8x2048 : 0 < S8x2048.numel
  inb_S512x8_S512x8_0_0 : ∀ a, (![0, 0] : Fin 2 → Nat) a + S512x8.size a ≤ S512x8.size a
  h_S512x8 : 0 < S512x8.numel
  inb_S512x2048_S512x2048_0_0 : ∀ a, (![0, 0] : Fin 2 → Nat) a + S512x2048.size a ≤ S512x2048.size a
  h_S512x2048 : 0 < S512x2048.numel
  shapeCasts_S8x2048_S8x2048 : S8x2048.ShapeCasts S8x2048
  inb_S2048x1024_S2048x1024_0_0 : ∀ a, (![0, 0] : Fin 2 → Nat) a + S2048x1024.size a ≤ S2048x1024.size a
  h_S2048x1024 : 0 < S2048x1024.numel
  inb_S2048x8_S2048x8_0_0 : ∀ a, (![0, 0] : Fin 2 → Nat) a + S2048x8.size a ≤ S2048x8.size a
  h_S2048x8 : 0 < S2048x8.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  shapeCasts_S2x2048x4096_S4096x4096 : S2x2048x4096.ShapeCasts S4096x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x1024_S2048x1024 : S2048x1024.ShapeCasts S2048x1024
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S4096x4096_S2x2048x4096 : S4096x4096.ShapeCasts S2x2048x4096
  dot_S512x8_S512x2048_S8x2048_0_0_1_1_n_n_wf : DotDims.WF S512x8 S512x2048 S8x2048 [0] [0] [1] [1] [] []
  dot_S2048x8_S8x1024_S2048x1024_1_0_0_1_n_n_wf : DotDims.WF S2048x8 S8x1024 S2048x1024 [1] [0] [0] [1] [] []
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S4096x8.size a
  hwx0_0 : ∀ i : grid0.Coords, EltTy.bits .f32 = 32 ∨ (Rect.block (s := S4096x8) S512x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x4096.size a
  hwx0_2 : ∀ i : grid0.Coords, EltTy.bits .f32 = 32 ∨ (Rect.block (s := S8x4096) S8x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x4096.size a
  hwx1_0 : ∀ i : grid1.Coords, EltTy.bits .f32 = 32 ∨ (Rect.block (s := S4096x4096) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x8.size a ≤ S4096x8.size a
  hwx1_1 : ∀ i : grid1.Coords, EltTy.bits .f32 = 32 ∨ (Rect.block (s := S4096x8) S2048x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S8x4096.size a
  hwx1_2 : ∀ i : grid1.Coords, EltTy.bits .f32 = 32 ∨ (Rect.block (s := S8x4096) S8x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1024.size a ≤ S8x4096.size a
  hwx1_3 : ∀ i : grid1.Coords, EltTy.bits .f32 = 32 ∨ (Rect.block (s := S8x4096) S8x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S4096x4096.size a
  hwx1_4 : ∀ i : grid1.Coords, EltTy.bits .bf16 = 32 ∨ (Rect.block (s := S4096x4096) S2048x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x4096.size a
  hwx2_1 : ∀ i : grid2.Coords, EltTy.bits .bf16 = 32 ∨ (Rect.block (s := S4096x4096) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x4096.size a
  hwx2_2 : ∀ i : grid2.Coords, EltTy.bits .f32 = 32 ∨ (Rect.block (s := S1x4096) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x2048.size a ≤ S4096x4096.size a
  hwx2_3 : ∀ i : grid2.Coords, EltTy.bits .f32 = 32 ∨ (Rect.block (s := S4096x4096) S1024x2048.size (cc2_transform_3 i) (hinb2_3 i)).WholeWords (EltTy.packing .f32)

variable [Facts₀]

def dot_S512x8_S512x2048_S8x2048_0_0_1_1_n_n : DotDims S512x8 S512x2048 S8x2048 where
  lhsContracting := [0]
  rhsContracting := [0]
  lhsNonContracting := [1]
  rhsNonContracting := [1]
  lhsBatch := []
  rhsBatch := []
  wf := dot_S512x8_S512x2048_S8x2048_0_0_1_1_n_n_wf
def dot_S2048x8_S8x1024_S2048x1024_1_0_0_1_n_n : DotDims S2048x8 S8x1024 S2048x1024 where
  lhsContracting := [1]
  rhsContracting := [0]
  lhsNonContracting := [0]
  rhsNonContracting := [1]
  lhsBatch := []
  rhsBatch := []
  wf := dot_S2048x8_S8x1024_S2048x1024_1_0_0_1_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_arg3) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2048x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S8x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S4096x8 : Shape := ⟨2, ![4096, 8]⟩
abbrev S8x4096 : Shape := ⟨2, ![8, 4096]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S8x4096, .f32⟩
  | .hbm, ⟨5, _⟩ => ⟨S8x4096, .f32⟩
  | .hbm, ⟨6, _⟩ => ⟨S8x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S2x2048x4096, .f32⟩
  | .hbm, ⟨12, _⟩ => ⟨S1x1x4096, .f32⟩
  | .hbm, ⟨13, _⟩ => ⟨S2x2048x4096, .f32⟩
  | .hbm, ⟨14, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S4096x8_S8x4096_1_0 : S4096x8.Transposes [1, 0] S8x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S8x4096_S4096x4096_S8x4096_1_0_0_1_n_n_wf : DotDims.WF S8x4096 S4096x4096 S8x4096 [1] [0] [0] [1] [] []
  dot_S4096x8_S8x4096_S4096x4096_1_0_0_1_n_n_wf : DotDims.WF S4096x8 S8x4096 S4096x4096 [1] [0] [0] [1] [] []
  dot_S2x2048x4096_S4096x4096_S2x2048x4096_2_1_01_0_n_n_wf : DotDims.WF S2x2048x4096 S4096x4096 S2x2048x4096 [2] [1] [0, 1] [0] [] []

variable [Facts₀]

def dot_S8x4096_S4096x4096_S8x4096_1_0_0_1_n_n : DotDims S8x4096 S4096x4096 S8x4096 where
  lhsContracting := [1]
  rhsContracting := [0]
  lhsNonContracting := [0]
  rhsNonContracting := [1]
  lhsBatch := []
  rhsBatch := []
  wf := dot_S8x4096_S4096x4096_S8x4096_1_0_0_1_n_n_wf
def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.KRun.lean ====
/-
  The idealized kernel's run, with its result named.

  The program is three pipelined regions among host operations. Its buffers' contents at every boundary between
  segments are a fold from the launch memory; after the last host operation every unscoped buffer holds what that
  fold gives it. So every weakly fair execution ends with the result buffer at the last boundary's contents
  and the five argument arrays as launched.
-/
import proofs.«154440_j48490180772375_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.KRun

end
-- ==== Proof.Pieces.lean ====
/-
  What each kernel body leaves in its output block, as the body's arithmetic of the blocks it loads.

  First region (the projection of the weights, accumulated over eight row tiles): at the first tile of a run the
  body stores the zero block, reads it back and leaves `0 + Pᵀ·W` of the tile; at a later tile it leaves
  `acc + Pᵀ·W`. Second region (the modified weights): one store of `(W − P·A) + P·B`. Third region (the main
  product, accumulated over four tiles of the contracted axis): `0 + x·wᵀ`, then `acc + x·wᵀ`, and at the last tile
  the bias row is added to what was just stored.
-/
import proofs.«154440_j48490180772375_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-! ## The first region -/

/-- A later tile of a run: the accumulator block `xo` plus the tile's product. -/
theorem out0_B (c : Dev nD) (i : grid0.Coords) (a2 : Memref sig .tc .vmem S512x8 .f32) (h2 : a2.IsWhole)
    (a3 : Memref sig .tc .vmem S512x2048 .f32) (h3 : a3.IsWhole) (a4 : Memref sig .tc .vmem S8x2048 .f32) (h4 : a4.IsWhole)
    (hc : ¬cond0_0 i) (x0 : Vec F S512x8 .f32) (x1 : Vec F S512x2048 .f32) (xo : Vec F S8x2048 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S512x8) hz,
    View.ld_unit_zero (S := S512x2048) hz, View.ld_unit_zero (S := S8x2048) hz]

/-- The first tile of a run: the zero block plus the tile's product. -/
theorem out0_A (c : Dev nD) (i : grid0.Coords) (a2 : Memref sig .tc .vmem S512x8 .f32) (h2 : a2.IsWhole)
    (a3 : Memref sig .tc .vmem S512x2048 .f32) (h3 : a3.IsWhole) (a4 : Memref sig .tc .vmem S8x2048 .f32) (h4 : a4.IsWhole)
    (hc : cond0_0 i) (x0 : Vec F S512x8 .f32) (x1 : Vec F S512x2048 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x2048) hz, View.readCov_unit_zero (S := S8x2048) _ hz]
  simp only [View.readAt_eq_ld, h2.read_unread, h3.read_unread, View.ld_unit_zero (S := S512x8) hz,
    View.ld_unit_zero (S := S512x2048) hz]

/-! ## The second region -/

/-- The one store of the second region's body. -/
theorem out1 (x0 : Vec F S2048x1024 .f32) (x1 : Vec F S2048x8 .f32) (x2 : Vec F S8x1024 .f32) (x3 : Vec F S8x1024 .f32) :
    out1_4 x0 x1 x2 x3 = k1_pay1 x0 x1 x2 x3 := by
  unfold out1_4
  rw [View.canon_unit_zero hz]
  simp only [View.ld_unit_zero (S := S2048x1024) hz, View.ld_unit_zero (S := S2048x8) hz, View.ld_unit_zero (S := S8x1024) hz]

end Cert.KernelIdeal.Pieces

end
-- ==== Proof.LibLhsTDot.lean ====
/-
  A matrix product with the left operand contracted on its FIRST axis, read at an entry.

  For the dimension numbers of a `K×M` by `K×N` product (contract axis 0 of both operands, no batch axes) the result
  is `M×N`, and the contraction sum at the entry `(p, q)` is `∑ k, lhs (k, p) · rhs (k, q)`: the product of the left
  operand's transpose with the right operand. Any record with these six lists is `lhsT K M N` (the well-formedness
  field is a proposition), so a printed record is rewritten to it by `rfl`.
-/
import Idealize.ShloMosaic.PureOps.Ideal.Laws
import Idealize.ShloMosaic.Lib.ValueIdx

noncomputable section

namespace Cert.LhsTDot

open Idealize.ShloMosaic Idealize.ShloMosaic.ValueIdx
open scoped BigOperators

/-- `K×M` by `K×N`, both operands contracted on their first axis. -/
def lhsT (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- The left operand's index at result entry `j` and contraction position `k` is `(k, j 0)`. -/
theorem lhsIdx_eq (j : (⟨2, ![M, N]⟩ : Shape).Idx) (k : Fin K) :
    (lhsT K M N).lhsIdx j ((contrEquiv1 (lhsT K M N) K rfl rfl).symm k) = ix2 k (j 0) := by
  have hk := contrEquiv1_symm_val (lhsT K M N) K rfl rfl k
  funext a
  apply Fin.ext
  match a with
  | ⟨0, _⟩ => exact ((lhsT K M N).lhsIdx_val_of_single rfl j _).trans hk
  | ⟨1, _⟩ =>
    show ((lhsT K M N).lhsIdx j _ 1).val = (j 0).val
    unfold DotDims.lhsIdx
    rw [dif_neg (show ¬(1 : Fin 2) ∈ (lhsT K M N).lhsBatch from List.not_mem_nil),
      dif_pos (show (1 : Fin 2) ∈ (lhsT K M N).lhsNonContracting from List.mem_singleton.mpr rfl)]
    rfl

/-- The right operand's index at result entry `j` and contraction position `k` is `(k, j 1)`. -/
theorem rhsIdx_eq (j : (⟨2, ![M, N]⟩ : Shape).Idx) (k : Fin K) :
    (lhsT K M N).rhsIdx j ((contrEquiv1 (lhsT K M N) K rfl rfl).symm k) = ix2 k (j 1) := by
  have hk := contrEquiv1_symm_val (lhsT K M N) K rfl rfl k
  funext a
  apply Fin.ext
  match a with
  | ⟨0, _⟩ => exact ((lhsT K M N).rhsIdx_val_of_single rfl j _).trans hk
  | ⟨1, _⟩ =>
    show ((lhsT K M N).rhsIdx j _ 1).val = (j 1).val
    unfold DotDims.rhsIdx
    rw [dif_neg (show ¬(1 : Fin 2) ∈ (lhsT K M N).rhsBatch from List.not_mem_nil),
      dif_pos (show (1 : Fin 2) ∈ (lhsT K M N).rhsNonContracting from List.mem_singleton.mpr rfl)]
    rfl

/-- The contraction sum at `(p, q)` is the sum over `k` of `lhs (k, p) · rhs (k, q)`. -/
theorem contraction_eq (lhs : (⟨2, ![K, M]⟩ : Shape).Idx → EReal) (rhs : (⟨2, ![K, N]⟩ : Shape).Idx → EReal) (p : Fin M) (q : Fin N) :
    (∑ k : (lhsT K M N).contr.Idx, lhs ((lhsT K M N).lhsIdx (ix2 p q) k) * rhs ((lhsT K M N).rhsIdx (ix2 p q) k))
      = ∑ k : Fin K, lhs (ix2 k p) * rhs (ix2 k q) := by
  rw [← Equiv.sum_comp (contrEquiv1 (lhsT K M N) K rfl rfl).symm]
  refine Finset.sum_congr rfl fun k _ => ?_
  rw [lhsIdx_eq, rhsIdx_eq]
  rfl

end Cert.LhsTDot

end
-- ==== Proof.LibTransDot.lean ====
/-
  A matrix product with the right operand contracted on its last axis, read at an entry.

  For the dimension numbers of an `M×K` by `N×K` product (contract axis 1 of both operands, no batch axes), the
  contraction sum at the entry `(p, q)`, on the extended reals, is `∑ k, lhs (p, k) · rhs (q, k)`: a row of the
  left operand against a row of the right one. A printed record with these six lists is
  `DotDims.transposedRhs M K N` (the well-formedness field is a proposition), so it is rewritten to it by `rfl`.
-/
import Idealize.ShloMosaic.PureOps.Ideal.Laws
import Idealize.ShloMosaic.Lib.ValueIdx

noncomputable section

namespace Cert.TransDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl j _).trans hk

/-- The right operand's index at result entry `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl j _).trans hk

/-- The contraction sum at `(p, q)` is the sum over `k` of `lhs (p, k) · rhs (q, k)`. -/
theorem contraction_eq (lhs : (⟨2, ![M, K]⟩ : Shape).Idx → EReal) (rhs : (⟨2, ![N, K]⟩ : Shape).Idx → EReal) (p : Fin M) (q : Fin N) :
    (∑ k : (DotDims.transposedRhs M K N).contr.Idx, lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_eq, rhsIdx_eq]
  rfl

end Cert.TransDot

end
-- ==== Proof.Pay.lean ====
/-
  The bodies' arithmetic of the two accumulated regions, read at one entry on the extended reals.

  The first region's body adds to its accumulator block the product of the transposed basis tile with the weight tile:
  entry (r, q) gains `∑ o, p (o, r) · w (o, q)` over the tile's 512 rows. The third region's body adds the product of an
  input tile with a tile of modified weights, rows against rows: entry (p, q) gains `∑ k, x (p, k) · w (q, k)` over the
  tile's 1024 columns (narrowing the operands to a shorter float format changes nothing on the extended reals); its
  last step adds the bias row. The block stored when a run starts is zero.
-/
import proofs.«154440_j48490180772375_2_alg».proof.Proof.Gen.KernelIdeal.Skeleton
import proofs.«154440_j48490180772375_2_alg».proof.Proof.LibLhsTDot
import proofs.«154440_j48490180772375_2_alg».proof.Proof.LibTransDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The block stored at the first tile of a run of the first region is zero. -/
theorem zero0 (y : S8x2048.Idx) : k0_pay1 (F := Ideal) y = 0 := by
  unfold k0_pay1
  show Ideal.ofBits .f32 0x00000000#32 = 0
  exact Ideal.ofBits_zero_f32

/-- The block stored at the first tile of a run of the third region is zero. -/
theorem zero2 (y : S1024x2048.Idx) : k2_pay1 (F := Ideal) y = 0 := by
  unfold k2_pay1
  show Ideal.ofBits .f32 0x00000000#32 = 0
  exact Ideal.ofBits_zero_f32

/-- The first region's step at (r, q): the accumulator there plus the column `r` of the basis tile against the column
    `q` of the weight tile. -/
theorem step0 (x0 : FVec Ideal S512x8 .f32) (x1 : FVec Ideal S512x2048 .f32) (acc : FVec Ideal S8x2048 .f32)
    (r : Fin 8) (q : Fin 2048) :
    k0_pay2 x0 x1 acc (ix2 r q) = acc (ix2 r q) + ∑ o : Fin 512, x0 (ix2 o r) * x1 (ix2 o q) := by
  unfold k0_pay2
  rw [addf_apply, shapeCast_self]
  refine congrArg (acc (ix2 r q) + ·) ?_
  show FloatOps.matmul (Cert.LhsTDot.lhsT 512 8 2048) none x0 x1 (constant ⟨2, ![8, 2048]⟩ .f32 0x00000000#32) (ix2 r q) = _
  rw [Ideal.matmul_constant_zero_apply]
  exact Cert.LhsTDot.contraction_eq x0 x1 r q

/-- The third region's step at (p, q): the accumulator there plus the row `p` of the input tile against the row `q` of
    the modified-weight tile. -/
theorem step2 (x0 : FVec Ideal S1024x1024 .f32) (x1 : FVec Ideal S2048x1024 .bf16) (acc : FVec Ideal S1024x2048 .f32)
    (p : Fin 1024) (q : Fin 2048) :
    k2_pay2 x0 x1 acc (ix2 p q) = acc (ix2 p q) + ∑ k : Fin 1024, x0 (ix2 p k) * x1 (ix2 q k) := by
  unfold k2_pay2
  rw [addf_apply, shapeCast_self, shapeCast_self, shapeCast_self]
  refine congrArg (acc (ix2 p q) + ·) ?_
  show FloatOps.matmul (DotDims.transposedRhs 1024 1024 2048) none (truncf .bf16 x0 bitsLt_bf16_f32) x1
    (constant ⟨2, ![1024, 2048]⟩ .f32 0x00000000#32) (ix2 p q) = _
  rw [Ideal.matmul_constant_zero_apply]
  exact Cert.TransDot.contraction_eq (truncf .bf16 x0 bitsLt_bf16_f32) x1 p q

/-- The third region's last step at (p, q): the bias row's entry `q` added. -/
theorem bias2 (v : FVec Ideal S1024x2048 .f32) (b : FVec Ideal S1x2048 .f32) (p : Fin 1024) (q : Fin 2048) :
    k2_pay3 v b (ix2 p q) = v (ix2 p q) + b (ix2 (0 : Fin 1) q) := by
  unfold k2_pay3
  rw [addf_apply, shapeCast_self, shapeCast_self]
  exact congrArg (v (ix2 p q) + ·) (broadcastTo_1b_ab_apply b broadcasts_S1x2048_S1024x2048 p q)

end Cert.KernelIdeal.Pay

end
-- ==== Proof.Spec.lean ====
/-
  The layer both programs compute, as functions of the argument arrays on the extended reals, index by index.

  With weights `W` of extents [O, I], a projection basis `P` of extents [O, R], a replacement `Rn` of extents
  [R, I], a bias `b` of extent [O] and inputs `x` of extents [A, B, I]:
    projected (r, i) = ∑ o, P (o, r) · W (o, i)                                            (Pᵀ·W)
    modified (o, i)  = (W (o, i) − ∑ r, P (o, r) · A (r, i)) + ∑ r, P (o, r) · B (r, i)     ((W − P·A) + P·B)
    layer (a, b, o)  = (∑ k, x (a, b, k) · Wm (o, k)) + bias (o)                            (x·Wmᵀ + bias)
  and the result is `layer x (modified W P (projected P W) Rn) b`. The same product taken on the rows of the
  flattened input, with the bias as a row, is `rowsBias`. Extents are parameters: nothing here is evaluated.
-/
import Idealize.ShloMosaic.PureOps.Ideal
import Idealize.ShloMosaic.Lib.ValueIdx

noncomputable section

namespace Cert.Inject

open Idealize.ShloMosaic Idealize.ShloMosaic.ValueIdx
open scoped BigOperators

variable {O I R A B M : Nat}

/-- `Pᵀ·W`: entry (r, i) is the sum over the rows `o` of `P (o, r) · W (o, i)`. -/
def projected (P : (⟨2, ![O, R]⟩ : Shape).Idx → EReal) (W : (⟨2, ![O, I]⟩ : Shape).Idx → EReal) :
    (⟨2, ![R, I]⟩ : Shape).Idx → EReal :=
  fun y => ∑ o : Fin O, P (ix2 o (y 0)) * W (ix2 o (y 1))

/-- `(W − P·A) + P·B`, entry by entry. -/
def modified (W : (⟨2, ![O, I]⟩ : Shape).Idx → EReal) (P : (⟨2, ![O, R]⟩ : Shape).Idx → EReal)
    (A' B' : (⟨2, ![R, I]⟩ : Shape).Idx → EReal) : (⟨2, ![O, I]⟩ : Shape).Idx → EReal :=
  fun y => (W y - ∑ r : Fin R, P (ix2 (y 0) r) * A' (ix2 r (y 1))) + ∑ r : Fin R, P (ix2 (y 0) r) * B' (ix2 r (y 1))

/-- Rows against rows plus a bias row: entry (p, o) is `∑ k, X (p, k) · Wm (o, k) + b (0, o)`. -/
def rowsBias (X : (⟨2, ![M, I]⟩ : Shape).Idx → EReal) (Wm : (⟨2, ![O, I]⟩ : Shape).Idx → EReal)
    (b : (⟨2, ![1, O]⟩ : Shape).Idx → EReal) : (⟨2, ![M, O]⟩ : Shape).Idx → EReal :=
  fun y => (∑ k : Fin I, X (ix2 (y 0) k) * Wm (ix2 (y 1) k)) + b (ix2 (0 : Fin 1) (y 1))

/-- The layer on a batch: entry (a, b, o) is `∑ k, x (a, b, k) · Wm (o, k) + bias (o)`. -/
def layer (x : (⟨3, ![A, B, I]⟩ : Shape).Idx → EReal) (Wm : (⟨2, ![O, I]⟩ : Shape).Idx → EReal)
    (b : (⟨1, ![O]⟩ : Shape).Idx → EReal) : (⟨3, ![A, B, O]⟩ : Shape).Idx → EReal :=
  fun y => (∑ k : Fin I, x (ix3 (y 0) (y 1) k) * Wm (ix2 (y 2) k)) + b (ix1 (y 2))

end Cert.Inject

end
-- ==== Proof.LibAccumBlocks.lean ====
/-
  A running total that is reset at every p-th step and otherwise takes up one more term: after the step numbered
  `p * j + k` (with `k < p`) it holds the sum of the terms of the steps `p * j, …, p * j + k` — the terms of its own
  period only, whatever was there before the reset. Only commutativity and associativity of the addition are used, so
  the statement holds in every additive commutative monoid; on the extended reals no finiteness is needed.
-/
import Mathlib.Algebra.BigOperators.Fin
import Mathlib.Algebra.BigOperators.Intervals

namespace AccumBlocks

open Finset

/-- `S` is the total after each step (defined for the steps below `N`), `B` the term a step contributes. If a step whose
    number is a multiple of `p` leaves exactly its own term (`hreset`) and every other step adds its term to what the step
    before left (`hstep`), then after step `p * j + k`, `k < p`, the total is `∑_{i ≤ k} B (p * j + i)`. -/
theorem total_eq_sum_range {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j : ℕ) : ∀ (k : ℕ), k < p → ∀ (n : ℕ) (h : n < N), n = p * j + k →
      S n h = ∑ i ∈ Finset.range (k + 1), B (p * j + i)
  | 0, _, n, h, hn => by
    subst hn
    rw [hreset _ h (by rw [Nat.add_zero]; exact Nat.mul_mod_right p j), Finset.sum_range_one]
  | k + 1, hk, n, h, hn => by
    subst hn
    have hne : (p * j + k + 1) % p ≠ 0 := by
      rw [Nat.add_assoc, Nat.mul_add_mod, Nat.mod_eq_of_lt hk]
      exact Nat.succ_ne_zero k
    have e := hstep (p * j + k) h hne
    rw [show S (p * j + (k + 1)) h = S (p * j + k + 1) h from rfl, e,
      total_eq_sum_range p N S B hreset hstep j k (Nat.lt_of_succ_lt hk) (p * j + k) _ rfl,
      Finset.sum_range_succ (fun i => B (p * j + i)) (k + 1)]
    rfl

/-- The same with the sum written over `Fin (k + 1)`. -/
theorem total_eq_sum_fin {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j k : ℕ) (hk : k < p) (n : ℕ) (h : n < N) (hn : n = p * j + k) :
    S n h = ∑ i : Fin (k + 1), B (p * j + i.val) := by
  rw [total_eq_sum_range p N S B hreset hstep j k hk n h hn, Finset.sum_range]

end AccumBlocks
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.LibBlockSum.lean ====
/-
  A sum over an index type of n · b elements, taken block by block: for any additive commutative monoid and any function on
  Fin N with N = n · b, the total is the sum over the n blocks of the sums over the b elements of each block, element
  (s, r) being the one at position b · s + r.
-/
import Mathlib.Algebra.BigOperators.Fin
import Mathlib.Logic.Equiv.Fin.Basic
import proofs.«154440_j48490180772375_2_alg».proof.Proof.LibSumBlocks

namespace BlockSum

open Finset

theorem pos_lt {n b : ℕ} (s : Fin n) (r : Fin b) : b * s.val + r.val < n * b := by
  have h1 : s.val + 1 ≤ n := s.isLt
  have h2 : r.val < b := r.isLt
  have h3 : b * (s.val + 1) ≤ b * n := Nat.mul_le_mul_left _ h1
  rw [Nat.mul_add_one] at h3
  rw [Nat.mul_comm n b]
  omega

/-- The total over Fin N, N = n · b, block by block. -/
theorem sum_eq_sum_blocks {M : Type*} [AddCommMonoid M] (n b N : ℕ) (hN : n * b = N) (F : Fin N → M) :
    ∑ e : Fin N, F e = ∑ s : Fin n, ∑ r : Fin b, F ⟨b * s.val + r.val, hN ▸ pos_lt s r⟩ := by
  subst hN
  have h := SumBlocks.sum_mul_eq_sum_blocks n b (fun e => if h : e < n * b then F ⟨e, h⟩ else 0)
  have hl : ∑ e : Fin (n * b), F e = ∑ e : Fin (n * b), (fun e => if h : e < n * b then F ⟨e, h⟩ else 0) e.val :=
    Finset.sum_congr rfl fun e _ => by simp only [e.isLt, dite_true]
  rw [hl, h]
  refine Finset.sum_congr rfl fun s _ => Finset.sum_congr rfl fun r _ => ?_
  simp only [pos_lt s r, dite_true]

end BlockSum
-- ==== Proof.Region0.lean ====
/-
  What the first region leaves in its output array: the projection `Pᵀ·W` of the arrays it finds.

  The region's grid is 2 column tiles by 8 row tiles; point `t` is column tile `t / 8` and row tile `t % 8`. At point
  `t` the body reads rows `512·(t % 8) …` of the basis `P` and of the columns `2048·(t / 8) …` of `W`, and adds their
  product into an 8 × 2048 block that is reset at the first row tile of each column tile and written back after the
  last. So the block written back at the end of column tile `j` holds, at (r, q), the eight tiles' sums
  `∑ s < 8, ∑ o < 512, P (512·s + o, r) · W (512·s + o, 2048·j + q)`, which is the whole sum over the 4096 rows: only
  the grouping of a finite sum changes. The two write-backs cover the array.
-/
import proofs.«154440_j48490180772375_2_alg».proof.Proof.Gen.KernelIdeal.Frame
import proofs.«154440_j48490180772375_2_alg».proof.Proof.Pieces
import proofs.«154440_j48490180772375_2_alg».proof.Proof.Pay
import proofs.«154440_j48490180772375_2_alg».proof.Proof.Spec
import proofs.«154440_j48490180772375_2_alg».proof.Proof.LibAccumBlocks
import proofs.«154440_j48490180772375_2_alg».proof.Proof.LibBlockSum
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b)) (c : Dev nD)

/-- The basis as the region finds it. -/
abbrev arrP : S4096x8.Idx → EReal := V c main_arg3
/-- The weights as the region finds them. -/
abbrev arrW : S4096x4096.Idx → EReal := V c main_arg1

/-- The windows' block indices at a point: row tile `t % 8`, column tile `t / 8`. -/
theorem idx0 : ∀ t : Fin cfg0.N,
    win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

/-- Row `o` of row tile `n % 8`. -/
abbrev rowOf (n : ℕ) (o : Fin 512) : Fin 4096 := ⟨512 * (n % 8) + o.val, by have := o.isLt; omega⟩
/-- Column `q` of column tile `(n / 8) % 2`. -/
abbrev colOf (n : ℕ) (q : Fin 2048) : Fin 4096 := ⟨2048 * ((n / 8) % 2) + q.val, by have := q.isLt; omega⟩

/-- The basis tile read at point `t`. -/
theorem blkP (t : Fin cfg0.N) (o : Fin 512) (r : Fin 8) :
    (iblk0 V c 0 t : Vec Ideal S512x8 .f32) (ix2 o r) = arrP V c (ix2 (rowOf t.val o) r) := by
  obtain ⟨e0, e1, -⟩ := idx0 t
  unfold iblk0
  rw [View.read_apply]
  show V c main_arg3 _ = V c main_arg3 _
  refine congrArg (V c main_arg3) (funext fun a => Fin.ext ?_)
  match a with
  | ⟨0, _⟩ => show win0_0.index t (0 : Fin 2) * 512 + 1 * o.val = 512 * (t.val % 8) + o.val; rw [e0]; omega
  | ⟨1, _⟩ => show win0_0.index t (1 : Fin 2) * 8 + 1 * r.val = r.val; rw [e1]; omega

/-- The weight tile read at point `t`. -/
theorem blkW (t : Fin cfg0.N) (o : Fin 512) (q : Fin 2048) :
    (iblk0 V c 1 t : Vec Ideal S512x2048 .f32) (ix2 o q) = arrW V c (ix2 (rowOf t.val o) (colOf t.val q)) := by
  obtain ⟨-, -, e2, e3, -⟩ := idx0 t
  have hN : t.val < 16 := lt_of_lt_of_eq t.isLt (show cfg0.N = 16 from N_0)
  unfold iblk0
  rw [View.read_apply]
  show V c main_arg1 _ = V c main_arg1 _
  refine congrArg (V c main_arg1) (funext fun a => Fin.ext ?_)
  match a with
  | ⟨0, _⟩ => show win0_1.index t (0 : Fin 2) * 512 + 1 * o.val = 512 * (t.val % 8) + o.val; rw [e2]; omega
  | ⟨1, _⟩ => show win0_1.index t (1 : Fin 2) * 2048 + 1 * q.val = 2048 * ((t.val / 8) % 2) + q.val; rw [e3]; omega

/-- What step `n` adds to the block: the product of the two tiles of point `n`. -/
def tile (n : ℕ) : S8x2048.Idx → EReal := fun y =>
  ∑ o : Fin 512, arrP V c (ix2 (rowOf n o) (y 0))
    * arrW V c (ix2 (rowOf n o) (colOf n (y 1)))

/-- One step of the body at point `t` over an accumulator block. -/
theorem step_eq (t : Fin cfg0.N) (acc : FVec Ideal S8x2048 .f32) :
    k0_pay2 (iblk0 V c 0 t) (iblk0 V c 1 t) acc = acc + tile V c t.val := by
  funext y
  obtain ⟨r, q, rfl⟩ : ∃ (r : Fin 8) (q : Fin 2048), y = ix2 r q := ⟨y 0, y 1, eq_ix2 y⟩
  rw [Pay.step0, Pi.add_apply]
  refine congrArg (acc (ix2 r q) + ·) (Finset.sum_congr rfl fun o _ => ?_)
  rw [blkP V c t o r, blkW V c t o q]

/-- The first step of a run starts from the zero block. -/
theorem first_eq (t : Fin cfg0.N) :
    k0_pay2 (iblk0 V c 0 t) (iblk0 V c 1 t) (k0_pay1 (F := Ideal)) = tile V c t.val := by
  rw [step_eq]
  funext y
  rw [Pi.add_apply, Pay.zero0, zero_add]

/-- The block after point `8·j + 7` is the sum of the eight tiles of column tile `j`. -/
theorem outs_eq (j : ℕ) (n : ℕ) (h : n < cfg0.N) (hn : n = 8 * j + 7) :
    outsAt0 V c n h = ∑ s : Fin 8, tile V c (8 * j + s.val) :=
  AccumBlocks.total_eq_sum_fin 8 cfg0.N (outsAt0 V c) (tile V c)
    (fun n h h0 => by
      rw [outsAt0_A V c ⟨n, h⟩ h0, Pieces.out0_A]
      exact first_eq V c ⟨n, h⟩)
    (fun n h h0 => by
      rw [outsAt0_B V c ⟨n + 1, h⟩ h0, Pieces.out0_B]
      exact step_eq V c ⟨n + 1, h⟩ _)
    j 7 (by decide) n h hn

/-- The array the region leaves: `Pᵀ·W` of the basis and the weights as the region finds them. -/
abbrev G0 : S8x4096.Idx → EReal :=
  Cert.Inject.projected (arrP V c) (arrW V c)

/-- The eight tiles' sums at (r, q) of column tile `j` are the whole sum over the 4096 rows. -/
theorem tiles_sum (j : ℕ) (hj : j < 2) (r : Fin 8) (q : Fin 2048) (i : S8x4096.Idx)
    (hi0 : (i 0).val = r.val) (hi1 : (i 1).val = 2048 * j + q.val) :
    (∑ s : Fin 8, tile V c (8 * j + s.val)) (ix2 r q) = G0 V c i := by
  rw [Finset.sum_apply]
  unfold G0 Cert.Inject.projected
  rw [BlockSum.sum_eq_sum_blocks 8 512 4096 rfl]
  refine Finset.sum_congr rfl fun s _ => ?_
  unfold tile
  refine Finset.sum_congr rfl fun o _ => ?_
  have hs := s.isLt
  have ho := o.isLt
  have e1 : rowOf (8 * j + s.val) o = (⟨512 * s.val + o.val, by omega⟩ : Fin 4096) := Fin.ext (by show 512 * ((8 * j + s.val) % 8) + o.val = 512 * s.val + o.val; omega)
  have e2 : (ix2 r q : S8x2048.Idx) 0 = i 0 := Fin.ext hi0.symm
  have e3 : colOf (8 * j + s.val) ((ix2 r q : S8x2048.Idx) 1) = i 1 :=
    Fin.ext (by show 2048 * (((8 * j + s.val) / 8) % 2) + q.val = (i 1).val; rw [hi1]; omega)
  rw [e1, e2, e3]

/-- What a writing-back point writes is its block of `Pᵀ·W`. -/
theorem flushed_eq (t : Fin cfg0.N) (hf : (cfg0.win 2).flush t = true) :
    (dat0 V c).flushed 2 t = ((cfg0.win 2).blk t).view.read (Elt Ideal) (G0 V c) := by
  have hN : t.val < 16 := lt_of_lt_of_eq t.isLt (show cfg0.N = 16 from N_0)
  have h7 : t.val % 8 = 7 := (flush0_2 t).mp hf
  obtain ⟨-, -, -, -, e4, e5⟩ := idx0 t
  show (cfg0.win 2).cut (grid0.coords t) ((dat0 V c).after 2 t) = _
  rw [after0_2, outs_eq V c (t.val / 8) t.val t.isLt (by omega)]
  funext y
  obtain ⟨r, q, rfl⟩ : ∃ (r : Fin 8) (q : Fin 2048), y = ix2 r q := ⟨y 0, y 1, eq_ix2 y⟩
  rw [View.read_apply]
  refine tiles_sum V c (t.val / 8) (by omega) r q _ ?_ ?_
  · show win0_2.index t (0 : Fin 2) * 8 + 1 * r.val = r.val; rw [e4]; omega
  · show win0_2.index t (1 : Fin 2) * 2048 + 1 * q.val = 2048 * (t.val / 8) + q.val; rw [e5]; omega

/-- An entry of the array is in point `t`'s block iff each coordinate is in the block's range on its axis. -/
theorem mem_blk (t : Fin cfg0.N) (i : S8x4096.Idx) :
    i ∈ ((cfg0.win 2).blk t).view.set ↔ ∀ a : Fin 2, win0_2.index t a * S8x2048.size a ≤ (i a).val ∧ (i a).val < win0_2.index t a * S8x2048.size a + S8x2048.size a := by
  show i ∈ ((View.whole main_v0).slice (win0_2.rect t)).set ↔ _
  rw [View.set_slice_whole, Rect.mem_set_unit]
  exact Iff.rfl

/-- After the run the output array holds `Pᵀ·W`: the write-backs after points 7 and 15 cover it. -/
theorem final0 : (dat0 V c).arrAt 2 cfg0.N = G0 V c :=
  (dat0 V c).arrAt_eq_of_cover 2 (G0 V c) (flushed_eq V c) fun i => by
    have h0 : (i 0).val < 8 := (i 0).isLt
    have h1 : (i 1).val < 4096 := (i 1).isLt
    have hlt : 8 * ((i 1).val / 2048) + 7 < cfg0.N := by rw [show cfg0.N = 16 from N_0]; omega
    refine ⟨⟨8 * ((i 1).val / 2048) + 7, hlt⟩, (flush0_2 _).mpr (by show (8 * ((i 1).val / 2048) + 7) % 8 = 7; omega), ?_⟩
    rw [mem_blk]
    obtain ⟨-, -, -, -, e4, e5⟩ := idx0 ⟨8 * ((i 1).val / 2048) + 7, hlt⟩
    intro a
    match a with
    | ⟨0, _⟩ =>
      show win0_2.index _ (0 : Fin 2) * 8 ≤ (i 0).val ∧ (i 0).val < win0_2.index _ (0 : Fin 2) * 8 + 8
      rw [e4]; omega
    | ⟨1, _⟩ =>
      show win0_2.index _ (1 : Fin 2) * 2048 ≤ (i 1).val ∧ (i 1).val < win0_2.index _ (1 : Fin 2) * 2048 + 2048
      rw [e5]; show (8 * ((i 1).val / 2048) + 7) / 8 * 2048 ≤ (i 1).val ∧ (i 1).val < (8 * ((i 1).val / 2048) + 7) / 8 * 2048 + 2048; omega

end Cert.KernelIdeal.Region0

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.Region1.lean ====
/-
  What the second pipelined region leaves in its output array.

  The region walks a 2 × 4 grid of points (oi, ii). At a point it reads the block (oi, ii) of the weights W
  (2048 rows by 1024 columns of a 4096 × 4096 array), the row block oi of the basis P (2048 × 8 of 4096 × 8) and
  the column blocks ii of the two 8 × 4096 arrays A and B (8 × 1024 each), and writes the block (oi, ii) of the
  output: the block of W minus the product of the P block with the A block plus the product of the P block with the
  B block. Row p of block oi is row 2048·oi + p of the array and column q of block ii is column 1024·ii + q, and the
  contracted axis (eight entries) is whole in every block, so the entry written at (p, q) of block (oi, ii) is the entry
  (2048·oi + p, 1024·ii + q) of the one whole-array function (W − P·A) + P·B of the four arrays. The eight blocks tile
  the output array, so after the region the output array is that function, whatever the arrays held at entry.
-/
import proofs.«154440_j48490180772375_2_alg».proof.Proof.Gen.KernelIdeal.Frame
import proofs.«154440_j48490180772375_2_alg».proof.Proof.Pieces
import proofs.«154440_j48490180772375_2_alg».proof.Proof.Spec
import proofs.«154440_j48490180772375_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-! ## The body's arithmetic at an entry of its block -/

/-- The block the body stores, read at the entry (p, q): the W entry minus the eight-term sum of P entries of row p
    times A entries of column q, plus the same sum with B in place of A. -/
theorem pay_apply (x0 : Vec Ideal S2048x1024 .f32) (x1 : Vec Ideal S2048x8 .f32) (x2 x3 : Vec Ideal S8x1024 .f32)
    (p : Fin 2048) (q : Fin 1024) :
    k1_pay1 x0 x1 x2 x3 (ix2 p q)
      = (x0 (ix2 p q) - ∑ r : Fin 8, x1 (ix2 p r) * x2 (ix2 r q)) + ∑ r : Fin 8, x1 (ix2 p r) * x3 (ix2 r q) := by
  unfold k1_pay1
  simp only [matmul]
  rw [truncf_apply, addf_apply, subf_apply, shapeCast_self]
  show (x0 (ix2 p q) - FloatOps.matmul (F := Ideal) (DotDims.plain 2048 8 1024) none x1 x2 (constant ⟨2, ![2048, 1024]⟩ .f32 0x00000000#32) (ix2 p q))
      + FloatOps.matmul (F := Ideal) (DotDims.plain 2048 8 1024) none x1 x3 (constant ⟨2, ![2048, 1024]⟩ .f32 0x00000000#32) (ix2 p q) = _
  rw [Cert.PlainDot.matmul_zero_apply, Cert.PlainDot.matmul_zero_apply]

/-! ## The index maps, decided over the eight points -/

/-- Point t = 4·oi + ii: the W and output windows sit at block (oi, ii), the P window at (oi, 0), the A and B
    windows at (0, ii). -/
theorem idx_facts : ∀ t : Fin cfg1.N,
    win1_0.index t (0 : Fin 2) = t.val / 4 ∧ win1_0.index t (1 : Fin 2) = t.val % 4
    ∧ win1_1.index t (0 : Fin 2) = t.val / 4 ∧ win1_1.index t (1 : Fin 2) = 0
    ∧ win1_2.index t (0 : Fin 2) = 0 ∧ win1_2.index t (1 : Fin 2) = t.val % 4
    ∧ win1_3.index t (0 : Fin 2) = 0 ∧ win1_3.index t (1 : Fin 2) = t.val % 4
    ∧ win1_4.index t (0 : Fin 2) = t.val / 4 ∧ win1_4.index t (1 : Fin 2) = t.val % 4 :=
  (by decide +kernel : ∀ t : Fin grid1.N, _)

/-! ## Where a block's entry sits in its array -/

section Blocks

variable (V : (c : Dev nD) → (b : Ref sig .tc) → Buf (Elt Ideal) ((c : Thread nD τ).loc b)) (c : Dev nD)

/-- A point of the 2 × 4 grid is one of eight. -/
theorem point_lt (t : Fin cfg1.N) : t.val < 8 := by
  have h := t.isLt
  have hN : cfg1.N = 8 := N_1
  omega

/-- Row p of row block t / 4 is a row of the 4096-row arrays. -/
theorem row_lt (t : Fin cfg1.N) (p : Fin 2048) : t.val / 4 * 2048 + p.val < 4096 := by
  have := point_lt t; have := p.isLt; omega

/-- Column q of column block t % 4 is a column of the 4096-column arrays. -/
theorem col_lt (t : Fin cfg1.N) (q : Fin 1024) : t.val % 4 * 1024 + q.val < 4096 := by
  have := q.isLt; omega

/-- The array row of row p of the point's row block. -/
abbrev row (t : Fin cfg1.N) (p : Fin 2048) : Fin 4096 := ⟨t.val / 4 * 2048 + p.val, row_lt t p⟩

/-- The array column of column q of the point's column block. -/
abbrev col (t : Fin cfg1.N) (q : Fin 1024) : Fin 4096 := ⟨t.val % 4 * 1024 + q.val, col_lt t q⟩

/-- Entry (p, q) of the point's W block is the entry (row, column) of W. -/
theorem wblock_apply (t : Fin cfg1.N) (p : Fin 2048) (q : Fin 1024) :
    iblk1 V c 0 t (ix2 p q) = V c main_arg1 (ix2 (row t p) (col t q)) := by
  obtain ⟨e00, e01, -⟩ := idx_facts t
  show V c main_arg1 (((cfg1.win 0).blk t).view.emb (ix2 p q)) = _
  refine congrArg (V c main_arg1) ?_
  funext a; apply Fin.ext
  match a with
  | ⟨0, _⟩ => show win1_0.index t (0 : Fin 2) * 2048 + 1 * p.val = t.val / 4 * 2048 + p.val; omega
  | ⟨1, _⟩ => show win1_0.index t (1 : Fin 2) * 1024 + 1 * q.val = t.val % 4 * 1024 + q.val; omega

/-- Entry (p, r) of the point's P block is the entry (row, r) of P: the eight columns are whole in every block. -/
theorem pblock_apply (t : Fin cfg1.N) (p : Fin 2048) (r : Fin 8) :
    iblk1 V c 1 t (ix2 p r) = V c main_arg3 (ix2 (row t p) r) := by
  obtain ⟨-, -, e10, e11, -⟩ := idx_facts t
  show V c main_arg3 (((cfg1.win 1).blk t).view.emb (ix2 p r)) = _
  refine congrArg (V c main_arg3) ?_
  funext a; apply Fin.ext
  match a with
  | ⟨0, _⟩ => show win1_1.index t (0 : Fin 2) * 2048 + 1 * p.val = t.val / 4 * 2048 + p.val; omega
  | ⟨1, _⟩ => show win1_1.index t (1 : Fin 2) * 8 + 1 * r.val = r.val; omega

/-- Entry (r, q) of the point's A block is the entry (r, column) of A: the eight rows are whole in every block. -/
theorem ablock_apply (t : Fin cfg1.N) (r : Fin 8) (q : Fin 1024) :
    iblk1 V c 2 t (ix2 r q) = V c main_v0 (ix2 r (col t q)) := by
  obtain ⟨-, -, -, -, e20, e21, -⟩ := idx_facts t
  show V c main_v0 (((cfg1.win 2).blk t).view.emb (ix2 r q)) = _
  refine congrArg (V c main_v0) ?_
  funext a; apply Fin.ext
  match a with
  | ⟨0, _⟩ => show win1_2.index t (0 : Fin 2) * 8 + 1 * r.val = r.val; omega
  | ⟨1, _⟩ => show win1_2.index t (1 : Fin 2) * 1024 + 1 * q.val = t.val % 4 * 1024 + q.val; omega

/-- Entry (r, q) of the point's B block is the entry (r, column) of B. -/
theorem bblock_apply (t : Fin cfg1.N) (r : Fin 8) (q : Fin 1024) :
    iblk1 V c 3 t (ix2 r q) = V c main_arg4 (ix2 r (col t q)) := by
  obtain ⟨-, -, -, -, -, -, e30, e31, -⟩ := idx_facts t
  show V c main_arg4 (((cfg1.win 3).blk t).view.emb (ix2 r q)) = _
  refine congrArg (V c main_arg4) ?_
  funext a; apply Fin.ext
  match a with
  | ⟨0, _⟩ => show win1_3.index t (0 : Fin 2) * 8 + 1 * r.val = r.val; omega
  | ⟨1, _⟩ => show win1_3.index t (1 : Fin 2) * 1024 + 1 * q.val = t.val % 4 * 1024 + q.val; omega

/-- Entry (p, q) of the point's output block sits at (row, column) of the output array. -/
theorem oblock_emb (t : Fin cfg1.N) (p : Fin 2048) (q : Fin 1024) :
    ((cfg1.win 4).blk t).view.emb (ix2 p q) = ix2 (row t p) (col t q) := by
  obtain ⟨-, -, -, -, -, -, -, -, e40, e41⟩ := idx_facts t
  funext a; apply Fin.ext
  match a with
  | ⟨0, _⟩ => show win1_4.index t (0 : Fin 2) * 2048 + 1 * p.val = t.val / 4 * 2048 + p.val; omega
  | ⟨1, _⟩ => show win1_4.index t (1 : Fin 2) * 1024 + 1 * q.val = t.val % 4 * 1024 + q.val; omega

end Blocks

/-! ## What a point writes back -/

/-- If the four blocks' entries on row p and column q are the arrays' entries on row a and column b, the body's
    arithmetic at (p, q) is the entry (a, b) of (W − P·A) + P·B. -/
theorem entry_eq {x0 : (⟨2, ![2048, 1024]⟩ : Shape).Idx → EReal} {x1 : (⟨2, ![2048, 8]⟩ : Shape).Idx → EReal}
    {x2 x3 : (⟨2, ![8, 1024]⟩ : Shape).Idx → EReal}
    {W : (⟨2, ![4096, 4096]⟩ : Shape).Idx → EReal} {P : (⟨2, ![4096, 8]⟩ : Shape).Idx → EReal}
    {A B : (⟨2, ![8, 4096]⟩ : Shape).Idx → EReal} {p : Fin 2048} {q : Fin 1024} {a b : Fin 4096}
    (h0 : x0 (ix2 p q) = W (ix2 a b)) (h1 : ∀ r : Fin 8, x1 (ix2 p r) = P (ix2 a r))
    (h2 : ∀ r : Fin 8, x2 (ix2 r q) = A (ix2 r b)) (h3 : ∀ r : Fin 8, x3 (ix2 r q) = B (ix2 r b)) :
    (x0 (ix2 p q) - ∑ r : Fin 8, x1 (ix2 p r) * x2 (ix2 r q)) + ∑ r : Fin 8, x1 (ix2 p r) * x3 (ix2 r q)
      = Cert.Inject.modified W P A B (ix2 a b) := by
  rw [h0]
  simp only [h1, h2, h3]
  rfl

section Flushed

variable (V : (c : Dev nD) → (b : Ref sig .tc) → Buf (Elt Ideal) ((c : Thread nD τ).loc b)) (c : Dev nD)

/-- What point t writes back is block t of (W − P·A) + P·B of the arrays the region finds. -/
theorem flushed_eq (t : Fin cfg1.N) :
    (dat1 V c).flushed 4 t = ((cfg1.win 4).blk t).view.read (Elt Ideal)
      (Cert.Inject.modified (O := 4096) (I := 4096) (R := 8) (V c main_arg1) (V c main_arg3) (V c main_v0) (V c main_arg4)) := by
  show (cfg1.win 4).cut (grid1.coords t) ((dat1 V c).after 4 t) = _
  rw [after1_4, Pieces.out1]
  funext j
  obtain ⟨p, q, rfl⟩ : ∃ (p : Fin 2048) (q : Fin 1024), j = ix2 p q := ⟨j 0, j 1, eq_ix2 j⟩
  show k1_pay1 (iblk1 V c 0 t) (iblk1 V c 1 t) (iblk1 V c 2 t) (iblk1 V c 3 t) (ix2 p q)
      = Cert.Inject.modified (O := 4096) (I := 4096) (R := 8) (V c main_arg1) (V c main_arg3) (V c main_v0) (V c main_arg4)
          (((cfg1.win 4).blk t).view.emb (ix2 p q))
  rw [oblock_emb]
  refine (pay_apply _ _ _ _ p q).trans ?_
  exact entry_eq (wblock_apply V c t p q) (fun r => pblock_apply V c t p r) (fun r => ablock_apply V c t r q)
    (fun r => bblock_apply V c t r q)

end Flushed

/-! ## The eight blocks tile the output array -/

/-- An index of the output array is in point t's block iff each coordinate is in the block's range on its axis. -/
theorem mem_oblock (t : Fin cfg1.N) (i : S4096x4096.Idx) :
    i ∈ ((cfg1.win 4).blk t).view.set ↔ ∀ a : Fin 2, win1_4.index t a * S2048x1024.size a ≤ (i a).val
      ∧ (i a).val < win1_4.index t a * S2048x1024.size a + S2048x1024.size a := by
  show i ∈ ((View.whole main_v1).slice (win1_4.rect t)).set ↔ _
  rw [View.set_slice_whole, Rect.mem_set_unit]
  exact Iff.rfl

/-- Every entry (a, b) of the output array lies in the block of the point 4·(a / 2048) + b / 1024, and every point
    writes its block back. -/
theorem cover (i : S4096x4096.Idx) :
    ∃ t : Fin cfg1.N, (cfg1.win 4).flush t = true ∧ i ∈ ((cfg1.win 4).blk t).view.set := by
  have hi0 : (i 0).val < 4096 := (i 0).isLt
  have hi1 : (i 1).val < 4096 := (i 1).isLt
  have hN : cfg1.N = 8 := N_1
  obtain ⟨t, ht⟩ : ∃ t : Fin cfg1.N, t.val = 4 * ((i 0).val / 2048) + (i 1).val / 1024 := ⟨⟨_, by omega⟩, rfl⟩
  obtain ⟨-, -, -, -, -, -, -, -, e40, e41⟩ := idx_facts t
  refine ⟨t, flush1_4 t, ?_⟩
  rw [mem_oblock]
  intro a
  match a with
  | ⟨0, _⟩ =>
    show win1_4.index t (0 : Fin 2) * 2048 ≤ (i 0).val ∧ (i 0).val < win1_4.index t (0 : Fin 2) * 2048 + 2048
    omega
  | ⟨1, _⟩ =>
    show win1_4.index t (1 : Fin 2) * 1024 ≤ (i 1).val ∧ (i 1).val < win1_4.index t (1 : Fin 2) * 1024 + 1024
    omega

/-! ## The output array after the region -/

/-- After the region the output array is (W − P·A) + P·B entry by entry, with W, P, A, B the arrays the region finds. -/
theorem final1 (V : (c : Dev nD) → (b : Ref sig .tc) → Buf (Elt Ideal) ((c : Thread nD τ).loc b)) (c : Dev nD) :
    (dat1 V c).arrAt 4 cfg1.N = Cert.Inject.modified (V c main_arg1) (V c main_arg3) (V c main_v0) (V c main_arg4) :=
  (dat1 V c).arrAt_eq_of_cover 4 _ (fun t _ => flushed_eq V c t) cover

end Cert.KernelIdeal.Region1

end
-- ==== Proof.Pieces2.lean ====
/-
  What the third region's body leaves in its output block, in each of its three cases.

  At the first tile of the contracted axis the body stores the zero block, reads it back and leaves `0 + x·wᵀ`; at a
  middle tile it leaves `acc + x·wᵀ`; at the last tile it stores `acc + x·wᵀ`, reads that back and leaves it plus
  the bias row.
-/
import proofs.«154440_j48490180772375_2_alg».proof.Proof.Gen.KernelIdeal.Frame
import Idealize.ShloMosaic.Lib.Pipeline.Value

set_option maxRecDepth 16384

noncomputable section

namespace Cert.KernelIdeal.Pieces2

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle tile: the accumulator block `xo` plus the tile's product. -/
theorem out2_B (c : Dev nD) (i : grid2.Coords) (a3 : Memref sig .tc .vmem S1024x1024 .f32) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc0 : ¬cond2_0 i) (hc1 : ¬cond2_1 i)
    (x0 : Vec F S1024x1024 .f32) (x1 : Vec F S2048x1024 .bf16) (x2 : Vec F S1x2048 .f32) (xo : Vec F S1024x2048 .f32) :
    out2_B_3 c i a3 h3 a4 h4 a5 h5 a6 h6 hc0 hc1 x0 x1 x2 xo = k2_pay2 x0 x1 xo := by
  unfold out2_B_3
  rw [View.read_writes_eq_canon _ _ _ (cover2_B_3 c i a3 h3 a4 h4 a5 h5 a6 h6 hc0 hc1 x0 x1 x2 xo)]
  unfold kernelRun2_B
  dsimp only
  rw [View.canon_unit_zero hz]
  simp only [View.readAt_eq_ld, h3.read_unread, h4.read_unread, h6.read_unread, View.ld_unit_zero (S := S1024x1024) hz,
    View.ld_unit_zero (S := S2048x1024) hz, View.ld_unit_zero (S := S1024x2048) hz]

/-- The first tile: the zero block plus the tile's product. -/
theorem out2_A (c : Dev nD) (i : grid2.Coords) (a3 : Memref sig .tc .vmem S1024x1024 .f32) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc0 : cond2_0 i) (hc1 : ¬cond2_1 i)
    (x0 : Vec F S1024x1024 .f32) (x1 : Vec F S2048x1024 .bf16) (x2 : Vec F S1x2048 .f32) :
    out2_A_3 c i a3 h3 a4 h4 a5 h5 a6 h6 hc0 hc1 x0 x1 x2 = k2_pay2 x0 x1 (k2_pay1 (F := F)) := by
  unfold out2_A_3
  rw [View.read_writes_eq_canon _ _ _ (cover2_A_3 c i a3 h3 a4 h4 a5 h5 a6 h6 hc0 hc1 x0 x1 x2)]
  unfold kernelRun2_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x1024) hz,
    View.ld_unit_zero (S := S2048x1024) hz]

/-- The last tile: the accumulator plus the tile's product, then the bias row added to that. -/
theorem out2_C (c : Dev nD) (i : grid2.Coords) (a3 : Memref sig .tc .vmem S1024x1024 .f32) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc0 : ¬cond2_0 i) (hc1 : cond2_1 i)
    (x0 : Vec F S1024x1024 .f32) (x1 : Vec F S2048x1024 .bf16) (x2 : Vec F S1x2048 .f32) (xo : Vec F S1024x2048 .f32) :
    out2_C_3 c i a3 h3 a4 h4 a5 h5 a6 h6 hc0 hc1 x0 x1 x2 xo = k2_pay3 (k2_pay2 x0 x1 xo) x2 := by
  unfold out2_C_3
  rw [View.read_writes_eq_canon _ _ _ (cover2_C_3 c i a3 h3 a4 h4 a5 h5 a6 h6 hc0 hc1 x0 x1 x2 xo)]
  unfold kernelRun2_C
  dsimp only
  sl_unfold_words
  rw [View.canon_cons_unit_zero (S := S1024x2048) hz, View.readCov_unit_zero (S := S1024x2048) _ hz]
  simp only [View.readAt_eq_ld, h3.read_unread, h4.read_unread, h5.read_unread, h6.read_unread,
    View.ld_unit_zero (S := S1024x1024) hz, View.ld_unit_zero (S := S2048x1024) hz, View.ld_unit_zero (S := S1x2048) hz,
    View.ld_unit_zero (S := S1024x2048) hz]

end Cert.KernelIdeal.Pieces2

end
-- ==== Proof.Region2.lean ====
/-
  What the third region leaves in its output array: rows of the inputs against rows of the modified weights, plus the
  bias row, of the arrays it finds.

  The region's grid is 4 row tiles by 2 column tiles by 4 tiles of the contracted axis; point `t` is row tile `t / 8`,
  column tile `(t / 4) % 2` and contraction tile `t % 4`. At point `t` the body reads a 1024 × 1024 tile of the inputs
  `X` and a 2048 × 1024 tile of the modified weights `Wm` and adds their rows-by-rows product into a 1024 × 2048 block
  that is reset at the first contraction tile, and at the last one adds the bias row and is written back. So the block
  written back after the four contraction tiles holds, at (p, q),
  `(((T₀ + T₁) + T₂) + T₃) + b` with `Tₛ = ∑ k < 1024, X (row, 1024·s + k) · Wm (col, 1024·s + k)`, and the four tiles'
  sums are the whole sum over the 4096 columns: only the grouping of a finite sum changes. The eight write-backs cover
  the array.
-/
import proofs.«154440_j48490180772375_2_alg».proof.Proof.Gen.KernelIdeal.Frame
import proofs.«154440_j48490180772375_2_alg».proof.Proof.Pieces2
import proofs.«154440_j48490180772375_2_alg».proof.Proof.Pay
import proofs.«154440_j48490180772375_2_alg».proof.Proof.Spec
import proofs.«154440_j48490180772375_2_alg».proof.Proof.LibBlockSum
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b)) (c : Dev nD)

/-- The flattened inputs as the region finds them. -/
abbrev arrX : S4096x4096.Idx → EReal := V c main_v2
/-- The modified weights as the region finds them. -/
abbrev arrWm : S4096x4096.Idx → EReal := V c main_v1
/-- The bias row as the region finds it. -/
abbrev arrB : S1x4096.Idx → EReal := V c main_v3

/-- The windows' block indices at a point: row tile `t / 8`, column tile `(t / 4) % 2`, contraction tile `t % 4`. -/
theorem idx2 : ∀ t : Fin cfg2.N,
    win2_0.index t (0 : Fin 2) = t.val / 8 ∧ win2_0.index t (1 : Fin 2) = t.val % 4
    ∧ win2_1.index t (0 : Fin 2) = (t.val / 4) % 2 ∧ win2_1.index t (1 : Fin 2) = t.val % 4
    ∧ win2_2.index t (0 : Fin 2) = 0 ∧ win2_2.index t (1 : Fin 2) = (t.val / 4) % 2
    ∧ win2_3.index t (0 : Fin 2) = t.val / 8 ∧ win2_3.index t (1 : Fin 2) = (t.val / 4) % 2 :=
  (by decide +kernel : ∀ t : Fin grid2.N, _)

/-- Row `p` of row tile `(n / 8) % 4`. -/
abbrev rowOf (n : ℕ) (p : Fin 1024) : Fin 4096 := ⟨1024 * ((n / 8) % 4) + p.val, by have := p.isLt; omega⟩
/-- Column `q` of column tile `(n / 4) % 2`. -/
abbrev colOf (n : ℕ) (q : Fin 2048) : Fin 4096 := ⟨2048 * ((n / 4) % 2) + q.val, by have := q.isLt; omega⟩
/-- Position `k` of contraction tile `n % 4`. -/
abbrev posOf (n : ℕ) (k : Fin 1024) : Fin 4096 := ⟨1024 * (n % 4) + k.val, by have := k.isLt; omega⟩

/-- The input tile read at point `t`. -/
theorem blkX (t : Fin cfg2.N) (p k : Fin 1024) :
    (iblk2 V c 0 t : Vec Ideal S1024x1024 .f32) (ix2 p k) = arrX V c (ix2 (rowOf t.val p) (posOf t.val k)) := by
  obtain ⟨e0, e1, -⟩ := idx2 t
  have hN : t.val < 32 := lt_of_lt_of_eq t.isLt (show cfg2.N = 32 from N_2)
  unfold iblk2
  rw [View.read_apply]
  show V c main_v2 _ = V c main_v2 _
  refine congrArg (V c main_v2) (funext fun a => Fin.ext ?_)
  match a with
  | ⟨0, _⟩ => show win2_0.index t (0 : Fin 2) * 1024 + 1 * p.val = 1024 * ((t.val / 8) % 4) + p.val; rw [e0]; omega
  | ⟨1, _⟩ => show win2_0.index t (1 : Fin 2) * 1024 + 1 * k.val = 1024 * (t.val % 4) + k.val; rw [e1]; omega

/-- The modified-weight tile read at point `t`. -/
theorem blkWm (t : Fin cfg2.N) (q : Fin 2048) (k : Fin 1024) :
    (iblk2 V c 1 t : Vec Ideal S2048x1024 .bf16) (ix2 q k) = arrWm V c (ix2 (colOf t.val q) (posOf t.val k)) := by
  obtain ⟨-, -, e2, e3, -⟩ := idx2 t
  unfold iblk2
  rw [View.read_apply]
  show V c main_v1 _ = V c main_v1 _
  refine congrArg (V c main_v1) (funext fun a => Fin.ext ?_)
  match a with
  | ⟨0, _⟩ => show win2_1.index t (0 : Fin 2) * 2048 + 1 * q.val = 2048 * ((t.val / 4) % 2) + q.val; rw [e2]; omega
  | ⟨1, _⟩ => show win2_1.index t (1 : Fin 2) * 1024 + 1 * k.val = 1024 * (t.val % 4) + k.val; rw [e3]; omega

/-- The bias tile read at point `t`. -/
theorem blkB (t : Fin cfg2.N) (q : Fin 2048) :
    (iblk2 V c 2 t : Vec Ideal S1x2048 .f32) (ix2 (0 : Fin 1) q) = arrB V c (ix2 (0 : Fin 1) (colOf t.val q)) := by
  obtain ⟨-, -, -, -, e4, e5, -⟩ := idx2 t
  unfold iblk2
  rw [View.read_apply]
  show V c main_v3 _ = V c main_v3 _
  refine congrArg (V c main_v3) (funext fun a => Fin.ext ?_)
  match a with
  | ⟨0, _⟩ => show win2_2.index t (0 : Fin 2) * 1 + 1 * 0 = 0; rw [e4]
  | ⟨1, _⟩ => show win2_2.index t (1 : Fin 2) * 2048 + 1 * q.val = 2048 * ((t.val / 4) % 2) + q.val; rw [e5]; omega

/-- What step `n` adds to the block: the rows-by-rows product of the two tiles of point `n`. -/
def tile (n : ℕ) : S1024x2048.Idx → EReal := fun y =>
  ∑ k : Fin 1024, arrX V c (ix2 (rowOf n (y 0)) (posOf n k)) * arrWm V c (ix2 (colOf n (y 1)) (posOf n k))

/-- The bias row under the block of point `n`. -/
def brow (n : ℕ) : S1024x2048.Idx → EReal := fun y => arrB V c (ix2 (0 : Fin 1) (colOf n (y 1)))

/-- One step of the body at point `t` over an accumulator block. -/
theorem step_eq (t : Fin cfg2.N) (acc : FVec Ideal S1024x2048 .f32) :
    k2_pay2 (iblk2 V c 0 t) (iblk2 V c 1 t) acc = acc + tile V c t.val := by
  funext y
  obtain ⟨p, q, rfl⟩ : ∃ (p : Fin 1024) (q : Fin 2048), y = ix2 p q := ⟨y 0, y 1, eq_ix2 y⟩
  rw [Pay.step2, Pi.add_apply]
  refine congrArg (acc (ix2 p q) + ·) (Finset.sum_congr rfl fun k _ => ?_)
  rw [blkX V c t p k, blkWm V c t q k]

/-- The first step of a run starts from the zero block. -/
theorem first_eq (t : Fin cfg2.N) :
    k2_pay2 (iblk2 V c 0 t) (iblk2 V c 1 t) (k2_pay1 (F := Ideal)) = tile V c t.val := by
  rw [step_eq]
  funext y
  rw [Pi.add_apply, Pay.zero2, zero_add]

/-- The last step adds the bias row. -/
theorem last_eq (t : Fin cfg2.N) (v : FVec Ideal S1024x2048 .f32) :
    k2_pay3 v (iblk2 V c 2 t) = v + brow V c t.val := by
  funext y
  obtain ⟨p, q, rfl⟩ : ∃ (p : Fin 1024) (q : Fin 2048), y = ix2 p q := ⟨y 0, y 1, eq_ix2 y⟩
  rw [Pay.bias2, Pi.add_apply]
  exact congrArg (v (ix2 p q) + ·) (blkB V c t q)

/-- The block after the first contraction tile. -/
theorem outs_A (n : ℕ) (h : n < cfg2.N) (h0 : n % 4 = 0) : outsAt2 V c n h = tile V c n := by
  rw [outsAt2_A V c ⟨n, h⟩ h0 (by show ¬ n % 4 = 3; omega), Pieces2.out2_A]
  exact first_eq V c ⟨n, h⟩

/-- The block after a middle contraction tile. -/
theorem outs_B (n : ℕ) (h : n + 1 < cfg2.N) (h0 : ¬ (n + 1) % 4 = 0) (h1 : ¬ (n + 1) % 4 = 3) :
    outsAt2 V c (n + 1) h = outsAt2 V c n (Nat.lt_of_succ_lt h) + tile V c (n + 1) := by
  rw [outsAt2_B V c ⟨n + 1, h⟩ h0 h1, Pieces2.out2_B]
  exact step_eq V c ⟨n + 1, h⟩ _

/-- The block after the last contraction tile. -/
theorem outs_C (n : ℕ) (h : n + 1 < cfg2.N) (h0 : ¬ (n + 1) % 4 = 0) (h1 : (n + 1) % 4 = 3) :
    outsAt2 V c (n + 1) h = (outsAt2 V c n (Nat.lt_of_succ_lt h) + tile V c (n + 1)) + brow V c (n + 1) := by
  rw [outsAt2_C V c ⟨n + 1, h⟩ h0 h1, Pieces2.out2_C, last_eq V c ⟨n + 1, h⟩, step_eq V c ⟨n + 1, h⟩]
  rfl

/-- The block written back after contraction tiles `4·j … 4·j + 3`. -/
theorem outs_eq (j : ℕ) (h : 4 * j + 3 < cfg2.N) :
    outsAt2 V c (4 * j + 3) h
      = (((tile V c (4 * j) + tile V c (4 * j + 1)) + tile V c (4 * j + 2)) + tile V c (4 * j + 3)) + brow V c (4 * j + 3) := by
  rw [outs_C V c (4 * j + 2) h (by omega) (by omega), outs_B V c (4 * j + 1) _ (by omega) (by omega),
    outs_B V c (4 * j) _ (by omega) (by omega), outs_A V c (4 * j) _ (by omega)]

/-- The array the region leaves: the rows of `X` against the rows of `Wm`, plus the bias row. -/
abbrev G2 : S4096x4096.Idx → EReal := Cert.Inject.rowsBias (arrX V c) (arrWm V c) (arrB V c)

/-- The four tiles' sums and the bias at (p, q) of the block of row tile `a`, column tile `b` are the whole entry. -/
theorem tiles_sum (j : ℕ) (hj : j < 8) (p : Fin 1024) (q : Fin 2048) (i : S4096x4096.Idx)
    (hi0 : (i 0).val = 1024 * (j / 2) + p.val) (hi1 : (i 1).val = 2048 * (j % 2) + q.val) :
    ((((tile V c (4 * j) + tile V c (4 * j + 1)) + tile V c (4 * j + 2)) + tile V c (4 * j + 3)) + brow V c (4 * j + 3)) (ix2 p q)
      = G2 V c i := by
  have hp := p.isLt
  have hq := q.isLt
  have er : ∀ s : ℕ, s < 4 → rowOf (4 * j + s) ((ix2 p q : S1024x2048.Idx) 0) = i 0 := fun s hs =>
    Fin.ext (by show 1024 * (((4 * j + s) / 8) % 4) + p.val = (i 0).val; rw [hi0]; omega)
  have ec : ∀ s : ℕ, s < 4 → colOf (4 * j + s) ((ix2 p q : S1024x2048.Idx) 1) = i 1 := fun s hs =>
    Fin.ext (by show 2048 * (((4 * j + s) / 4) % 2) + q.val = (i 1).val; rw [hi1]; omega)
  have ek : ∀ (s : Fin 4) (k : Fin 1024), posOf (4 * j + s.val) k = (⟨1024 * s.val + k.val, by have := s.isLt; have := k.isLt; omega⟩ : Fin 4096) :=
    fun s k => Fin.ext (by show 1024 * ((4 * j + s.val) % 4) + k.val = 1024 * s.val + k.val; have := s.isLt; omega)
  have et : ∀ s : Fin 4, tile V c (4 * j + s.val) (ix2 p q)
      = ∑ k : Fin 1024, arrX V c (ix2 (i 0) ⟨1024 * s.val + k.val, by have := s.isLt; have := k.isLt; omega⟩)
          * arrWm V c (ix2 (i 1) ⟨1024 * s.val + k.val, by have := s.isLt; have := k.isLt; omega⟩) := fun s => by
    unfold tile
    refine Finset.sum_congr rfl fun k _ => ?_
    rw [er s.val s.isLt, ec s.val s.isLt, ek s k]
  unfold G2 Cert.Inject.rowsBias
  rw [BlockSum.sum_eq_sum_blocks 4 1024 4096 rfl, Fin.sum_univ_four]
  simp only [Pi.add_apply]
  refine congrArg₂ (· + ·) (congrArg₂ (· + ·) (congrArg₂ (· + ·) (congrArg₂ (· + ·) (et 0) (et 1)) (et 2)) (et 3)) ?_
  unfold brow
  rw [ec 3 (by omega)]

/-- What a writing-back point writes is its block of the result. -/
theorem flushed_eq (t : Fin cfg2.N) (hf : (cfg2.win 3).flush t = true) :
    (dat2 V c).flushed 3 t = ((cfg2.win 3).blk t).view.read (Elt Ideal) (G2 V c) := by
  have hN : t.val < 32 := lt_of_lt_of_eq t.isLt (show cfg2.N = 32 from N_2)
  have h3 : t.val % 4 = 3 := (flush2_3 t).mp hf
  obtain ⟨-, -, -, -, -, -, e6, e7⟩ := idx2 t
  have ht : t.val = 4 * (t.val / 4) + 3 := by omega
  have hlt : 4 * (t.val / 4) + 3 < cfg2.N := by rw [← ht]; exact t.isLt
  have ho : outsAt2 V c t.val t.isLt = outsAt2 V c (4 * (t.val / 4) + 3) hlt := by
    congr 1
  show (cfg2.win 3).cut (grid2.coords t) ((dat2 V c).after 3 t) = _
  rw [after2_3, ho, outs_eq V c (t.val / 4) hlt]
  funext y
  obtain ⟨p, q, rfl⟩ : ∃ (p : Fin 1024) (q : Fin 2048), y = ix2 p q := ⟨y 0, y 1, eq_ix2 y⟩
  rw [View.read_apply]
  refine tiles_sum V c (t.val / 4) (by omega) p q _ ?_ ?_
  · show win2_3.index t (0 : Fin 2) * 1024 + 1 * p.val = 1024 * (t.val / 4 / 2) + p.val; rw [e6]; omega
  · show win2_3.index t (1 : Fin 2) * 2048 + 1 * q.val = 2048 * (t.val / 4 % 2) + q.val; rw [e7]; omega

/-- An entry of the array is in point `t`'s block iff each coordinate is in the block's range on its axis. -/
theorem mem_blk (t : Fin cfg2.N) (i : S4096x4096.Idx) :
    i ∈ ((cfg2.win 3).blk t).view.set ↔ ∀ a : Fin 2, win2_3.index t a * S1024x2048.size a ≤ (i a).val ∧ (i a).val < win2_3.index t a * S1024x2048.size a + S1024x2048.size a := by
  show i ∈ ((View.whole main_v4).slice (win2_3.rect t)).set ↔ _
  rw [View.set_slice_whole, Rect.mem_set_unit]
  exact Iff.rfl

/-- After the run the output array holds the result: the eight write-backs cover it. -/
theorem final2 : (dat2 V c).arrAt 3 cfg2.N = G2 V c :=
  (dat2 V c).arrAt_eq_of_cover 3 (G2 V c) (flushed_eq V c) fun i => by
    have h0 : (i 0).val < 4096 := (i 0).isLt
    have h1 : (i 1).val < 4096 := (i 1).isLt
    have hlt : 8 * ((i 0).val / 1024) + 4 * ((i 1).val / 2048) + 3 < cfg2.N := by rw [show cfg2.N = 32 from N_2]; omega
    refine ⟨⟨8 * ((i 0).val / 1024) + 4 * ((i 1).val / 2048) + 3, hlt⟩,
      (flush2_3 _).mpr (by show (8 * ((i 0).val / 1024) + 4 * ((i 1).val / 2048) + 3) % 4 = 3; omega), ?_⟩
    rw [mem_blk]
    obtain ⟨-, -, -, -, -, -, e6, e7⟩ := idx2 ⟨8 * ((i 0).val / 1024) + 4 * ((i 1).val / 2048) + 3, hlt⟩
    intro a
    match a with
    | ⟨0, _⟩ =>
      show win2_3.index _ (0 : Fin 2) * 1024 ≤ (i 0).val ∧ (i 0).val < win2_3.index _ (0 : Fin 2) * 1024 + 1024
      rw [e6]
      show (8 * ((i 0).val / 1024) + 4 * ((i 1).val / 2048) + 3) / 8 * 1024 ≤ (i 0).val ∧ (i 0).val < (8 * ((i 0).val / 1024) + 4 * ((i 1).val / 2048) + 3) / 8 * 1024 + 1024
      omega
    | ⟨1, _⟩ =>
      show win2_3.index _ (1 : Fin 2) * 2048 ≤ (i 1).val ∧ (i 1).val < win2_3.index _ (1 : Fin 2) * 2048 + 2048
      rw [e7]
      show (8 * ((i 0).val / 1024) + 4 * ((i 1).val / 2048) + 3) / 4 % 2 * 2048 ≤ (i 1).val ∧ (i 1).val < (8 * ((i 0).val / 1024) + 4 * ((i 1).val / 2048) + 3) / 4 % 2 * 2048 + 2048
      omega

end Cert.KernelIdeal.Region2

end
-- ==== Proof.LibRowsLinear.lean ====
/-
  A linear layer over a batch of rows, in two layouts.

  An array `x` of extents `[A, B, K]` (a batch of `A·B` rows of length `K`) against a weight matrix `w` of
  extents `[N, K]` gives `y (a, b, o) = ∑ k, x (a, b, k) · w (o, k)`. The same numbers are obtained by first
  flattening the two leading axes of `x` into `M = A·B` rows, taking all row-by-row products
  `z (r, o) = ∑ k, x' (r, k) · w (o, k)`, and splitting the row axis of `z` again: row `r = a·B + b` of the
  flattened array is row `(a, b)` of `x`. Nothing is asked of the entries: each entry of the result is the
  same finite sum of the same products, so the statement holds over any additive commutative monoid with
  a product; it is stated on the extended reals.

  Also here: the two reshapes read at an index, for any extents.
-/
import Idealize.ShloMosaic.Lib.Pipeline.Value
import Idealize.ShloMosaic.Lib.ValueIdx

noncomputable section

namespace Cert.RowsLinear

open Idealize.ShloMosaic Idealize.ShloMosaic.ValueIdx
open scoped BigOperators

variable {α : Type} {A B C M : Nat}

/-- An `[A, B, C]` array reshaped to `[M, C]` (`M = A·B`) reads, at `(r, k)` with `r = a·B + b`, the operand at
    `(a, b, k)`: the two indices have the same row-major position. -/
theorem flatten_apply (x : (⟨3, ![A, B, C]⟩ : Shape).Idx → α)
    (h : (⟨3, ![A, B, C]⟩ : Shape).ShapeCasts ⟨2, ![M, C]⟩) (a : Fin A) (b : Fin B) (k : Fin C) (r : Fin M)
    (hr : r.val = a.val * B + b.val) :
    shapeCast ⟨2, ![M, C]⟩ x h (ix2 r k) = x (ix3 a b k) :=
  shapeCast_apply x h _ _ (by
    rw [Shape.rowMajor_val_three, Shape.rowMajor_val_two]
    show (a.val * B + b.val) * C + k.val = r.val * C + k.val
    rw [hr])

/-- An `[M, C]` array (`M = A·B`) reshaped to `[A, B, C]` reads, at `(a, b, k)`, the operand at `(a·B + b, k)`. -/
theorem split_apply (x : (⟨2, ![M, C]⟩ : Shape).Idx → α)
    (h : (⟨2, ![M, C]⟩ : Shape).ShapeCasts ⟨3, ![A, B, C]⟩) (a : Fin A) (b : Fin B) (k : Fin C) (r : Fin M)
    (hr : r.val = a.val * B + b.val) :
    shapeCast ⟨3, ![A, B, C]⟩ x h (ix3 a b k) = x (ix2 r k) :=
  shapeCast_apply x h _ _ (by
    rw [Shape.rowMajor_val_three, Shape.rowMajor_val_two]
    show r.val * C + k.val = (a.val * B + b.val) * C + k.val
    rw [hr])

variable {K N : Nat}

/-- All products of a row of `xs` with a row of `w`: `z (r, o) = ∑ k, xs (r, k) · w (o, k)`. -/
def rowsProd (xs : (⟨2, ![M, K]⟩ : Shape).Idx → EReal) (w : (⟨2, ![N, K]⟩ : Shape).Idx → EReal) :
    (⟨2, ![M, N]⟩ : Shape).Idx → EReal :=
  fun i => ∑ k : Fin K, xs (ix2 (i 0) k) * w (ix2 (i 1) k)

/-- The linear layer on a batch: `y (a, b, o) = ∑ k, x (a, b, k) · w (o, k)`. -/
def linear (x : (⟨3, ![A, B, K]⟩ : Shape).Idx → EReal) (w : (⟨2, ![N, K]⟩ : Shape).Idx → EReal) :
    (⟨3, ![A, B, N]⟩ : Shape).Idx → EReal :=
  fun i => ∑ k : Fin K, x (ix3 (i 0) (i 1) k) * w (ix2 (i 2) k)

/-- Flattening the batch, multiplying rows by rows and splitting the row axis again is the linear layer on the
    batch: entry `(a, b, o)` of the split array is entry `(a·B + b, o)` of the products, whose left factors are row
    `a·B + b` of the flattened batch, that is row `(a, b)` of `x`. -/
theorem split_rowsProd_flatten (hM : M = A * B) (x : (⟨3, ![A, B, K]⟩ : Shape).Idx → EReal)
    (w : (⟨2, ![N, K]⟩ : Shape).Idx → EReal)
    (h1 : (⟨3, ![A, B, K]⟩ : Shape).ShapeCasts ⟨2, ![M, K]⟩)
    (h2 : (⟨2, ![M, N]⟩ : Shape).ShapeCasts ⟨3, ![A, B, N]⟩) :
    shapeCast ⟨3, ![A, B, N]⟩ (rowsProd (shapeCast ⟨2, ![M, K]⟩ x h1) w) h2 = linear x w := by
  funext i
  obtain ⟨a, b, o, rfl⟩ : ∃ (a : Fin A) (b : Fin B) (o : Fin N), i = ix3 a b o := ⟨i 0, i 1, i 2, eq_ix3 i⟩
  have hlt : a.val * B + b.val < M := by
    rw [hM]
    calc a.val * B + b.val < a.val * B + B := Nat.add_lt_add_left b.isLt _
      _ = (a.val + 1) * B := by rw [Nat.add_mul, Nat.one_mul]
      _ ≤ A * B := Nat.mul_le_mul_right B a.isLt
  rw [split_apply _ h2 a b o ⟨a.val * B + b.val, hlt⟩ rfl]
  unfold rowsProd linear
  refine Finset.sum_congr rfl fun k _ => ?_
  show shapeCast ⟨2, ![M, K]⟩ x h1 (ix2 ⟨a.val * B + b.val, hlt⟩ k) * w (ix2 o k) = x (ix3 a b k) * w (ix2 o k)
  rw [flatten_apply x h1 a b k ⟨a.val * B + b.val, hlt⟩ rfl]

end Cert.RowsLinear

end
-- ==== Proof.FlatLayer.lean ====
/-
  The layer on a batch, computed on the flattened batch.

  Flattening the two leading axes of the inputs into rows, taking every row against every row of the weights and adding
  the bias as a row, then splitting the row axis again, gives the layer on the batch: entry (a, b, o) of the split array
  is entry (a·B + b, o) of the row product, whose left factors are row (a, b) of the inputs, and the bias row's entry
  `o` is the bias at `o`. Each entry is the same finite sum of the same products; any extents.
-/
import proofs.«154440_j48490180772375_2_alg».proof.Proof.Spec
import proofs.«154440_j48490180772375_2_alg».proof.Proof.LibRowsLinear
import Idealize.ShloMosaic.Lib.ValueLayout

noncomputable section

namespace Cert.Inject

open Idealize.ShloMosaic Idealize.ShloMosaic.ValueIdx
open scoped BigOperators

variable {A B I O M : Nat}

/-- Split ∘ (rows against rows + bias row) ∘ flatten is the layer on the batch. -/
theorem split_rowsBias_flatten (hM : M = A * B) (x : (⟨3, ![A, B, I]⟩ : Shape).Idx → EReal)
    (Wm : (⟨2, ![O, I]⟩ : Shape).Idx → EReal) (b : (⟨1, ![O]⟩ : Shape).Idx → EReal)
    (h1 : (⟨3, ![A, B, I]⟩ : Shape).ShapeCasts ⟨2, ![M, I]⟩) (h2 : (⟨2, ![M, O]⟩ : Shape).ShapeCasts ⟨3, ![A, B, O]⟩)
    (h3 : (⟨1, ![O]⟩ : Shape).ShapeCasts ⟨2, ![1, O]⟩) :
    shapeCast ⟨3, ![A, B, O]⟩ (rowsBias (shapeCast ⟨2, ![M, I]⟩ x h1) Wm (shapeCast ⟨2, ![1, O]⟩ b h3)) h2 = layer x Wm b := by
  funext i
  obtain ⟨a, b', o, rfl⟩ : ∃ (a : Fin A) (b' : Fin B) (o : Fin O), i = ix3 a b' o := ⟨i 0, i 1, i 2, eq_ix3 i⟩
  have hlt : a.val * B + b'.val < M := by
    rw [hM]
    calc a.val * B + b'.val < a.val * B + B := Nat.add_lt_add_left b'.isLt _
      _ = (a.val + 1) * B := by rw [Nat.add_mul, Nat.one_mul]
      _ ≤ A * B := Nat.mul_le_mul_right B a.isLt
  rw [Cert.RowsLinear.split_apply _ h2 a b' o ⟨a.val * B + b'.val, hlt⟩ rfl]
  unfold rowsBias layer
  refine congrArg₂ (· + ·) (Finset.sum_congr rfl fun k _ => ?_) ?_
  · show shapeCast ⟨2, ![M, I]⟩ x h1 (ix2 ⟨a.val * B + b'.val, hlt⟩ k) * Wm (ix2 o k) = x (ix3 a b' k) * Wm (ix2 o k)
    rw [Cert.RowsLinear.flatten_apply x h1 a b' k ⟨a.val * B + b'.val, hlt⟩ rfl]
  · exact shapeCast_a_1a_apply b h3 (0 : Fin 1) o

end Cert.Inject

end
-- ==== Proof.Walk.lean ====
/-
  The result buffer's contents at the last boundary, as a function of the launch memory.

  The boundaries' contents are a fold: the first region leaves `Pᵀ·W` in its output array and nothing else changes; the
  second region reads that array, the weights, the basis and the replacement and leaves the modified weights; two
  reshapes flatten the inputs to rows and make the bias a row; the third region leaves the rows of the flattened inputs
  against the rows of the modified weights plus the bias row; a last reshape splits the row axis again. No region and
  no host operation writes an argument array, so each array a region finds is either an argument as launched or what
  an earlier segment left. Split ∘ (rows against rows + bias row) ∘ flatten is the layer on the batch.
-/
import proofs.«154440_j48490180772375_2_alg».proof.Proof.Gen.KernelIdeal.Frame
import proofs.«154440_j48490180772375_2_alg».proof.Proof.Region0
import proofs.«154440_j48490180772375_2_alg».proof.Proof.Region1
import proofs.«154440_j48490180772375_2_alg».proof.Proof.Region2
import proofs.«154440_j48490180772375_2_alg».proof.Proof.Spec
import proofs.«154440_j48490180772375_2_alg».proof.Proof.FlatLayer
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg) (c : Dev nD)

/-- The argument arrays as launched. -/
abbrev aX : S2x2048x4096.Idx → EReal := m ((c : Thread nD τ).loc main_arg0)
abbrev aW : S4096x4096.Idx → EReal := m ((c : Thread nD τ).loc main_arg1)
abbrev aB : S4096.Idx → EReal := m ((c : Thread nD τ).loc main_arg2)
abbrev aP : S4096x8.Idx → EReal := m ((c : Thread nD τ).loc main_arg3)
abbrev aR : S8x4096.Idx → EReal := m ((c : Thread nD τ).loc main_arg4)

/-- The projection `Pᵀ·W` and the modified weights of the launch arrays. -/
abbrev proj : S8x4096.Idx → EReal := Cert.Inject.projected (aP m c) (aW m c)
abbrev wmod : S4096x4096.Idx → EReal := Cert.Inject.modified (aW m c) (aP m c) (proj m c) (aR m c)

/-! ## What the second region finds -/

/-- The weights and the basis are input windows of the first region: their arrays pass through it unchanged. -/
theorem v1_arg1 : V1 m ρ c main_arg1 = aW m c :=
  (W1_arr m ρ c 1).trans (((dat0 (V0 m ρ) c).arrAt_in 1 rfl _).trans (A_eq0 (V0 m ρ) c 1))
theorem v1_arg3 : V1 m ρ c main_arg3 = aP m c :=
  (W1_arr m ρ c 0).trans (((dat0 (V0 m ρ) c).arrAt_in 0 rfl _).trans (A_eq0 (V0 m ρ) c 0))
theorem v1_arg4 : V1 m ρ c main_arg4 = aR m c := W1_of_ne m ρ c main_arg4 (by decide)
/-- The first region's output array. -/
theorem v1_v0 : V1 m ρ c main_v0 = proj m c := (W1_arr m ρ c 2).trans (Region0.final0 (V0 m ρ) c)

/-- The second region's output array: the modified weights. -/
theorem v2_v1 : V2 m ρ c main_v1 = wmod m c := by
  have h := (W2_arr m ρ c 4).trans (Region1.final1 (V1 m ρ) c)
  rw [v1_arg1, v1_arg3, v1_v0, v1_arg4] at h
  exact h

/-! ## What the third region finds -/

theorem v3_v1 : V3 m ρ c main_v1 = wmod m c := by
  refine Eq.trans ?_ (v2_v1 m ρ c)
  show StableHlo.after hostOps2 (W2 m ρ c) (Proc.devRef .tc main_v1) = W2 m ρ c (Proc.devRef .tc main_v1)
  after_results

/-- The inputs flattened to rows. -/
theorem v3_v2 : V3 m ρ c main_v2 = shapeCast S4096x4096 (aX m c) shapeCasts_S2x2048x4096_S4096x4096 := by
  show StableHlo.after hostOps2 (W2 m ρ c) (Proc.devRef .tc main_v2) = _
  after_results
  rw [W2_of_ne m ρ c main_arg0 (by decide), W1_of_ne m ρ c main_arg0 (by decide)]
  rfl

/-- The bias as a row. -/
theorem v3_v3 : V3 m ρ c main_v3 = shapeCast S1x4096 (aB m c) shapeCasts_S4096_S1x4096 := by
  show StableHlo.after hostOps2 (W2 m ρ c) (Proc.devRef .tc main_v3) = _
  after_results
  rw [W2_of_ne m ρ c main_arg2 (by decide), W1_of_ne m ρ c main_arg2 (by decide)]
  rfl

/-- The third region's output array. -/
theorem v4_v4 : V4 m ρ c main_v4
    = Cert.Inject.rowsBias (shapeCast S4096x4096 (aX m c) shapeCasts_S2x2048x4096_S4096x4096) (wmod m c)
        (shapeCast S1x4096 (aB m c) shapeCasts_S4096_S1x4096) := by
  have h := (W4_arr m ρ c 3).trans (Region2.final2 (V3 m ρ) c)
  unfold Region2.G2 Region2.arrX Region2.arrWm Region2.arrB at h
  rw [v3_v2, v3_v1, v3_v3] at h
  exact h

/-! ## The result -/

/-- The result buffer at the last boundary is the layer of the launch arrays. -/
theorem result_eq : W5 m ρ c (Proc.devRef .tc main_v5) = Cert.Inject.layer (aX m c) (wmod m c) (aB m c) := by
  refine Eq.trans ?_ (Cert.Inject.split_rowsBias_flatten (M := 4096) (A := 2) (B := 2048) (I := 4096) (O := 4096) rfl (aX m c) (wmod m c) (aB m c)
    shapeCasts_S2x2048x4096_S4096x4096 shapeCasts_S4096x4096_S2x2048x4096 shapeCasts_S4096_S1x4096)
  show StableHlo.after hostOps3 (W4 m ρ c) (Proc.devRef .tc main_v5) = _
  after_results
  rw [show W4 m ρ c (Proc.devRef .tc main_v4) = _ from v4_v4 m ρ c]
  rfl

end Cert.KernelIdeal.Walk

end
-- ==== Proof.RefSide.lean ====
/-
  The reference program's result, read one entry at a time, is the layer of the specification.

  The reference works in ten stages over weights `W` (4096 × 4096), a basis `P` (4096 × 8), a replacement `Rn` (8 × 4096),
  a bias `b` (4096) and inputs `x` (2 × 2048 × 4096):
    stage 0 transposes the basis:                 Pᵀ (r, k) = P (k, r)
    stage 1 is the product Pᵀ·W:                  (r, j) ↦ ∑ k, P (k, r) · W (k, j)
    stage 2 is P times stage 1:                   (o, j) ↦ ∑ r, P (o, r) · stage1 (r, j)
    stage 3 subtracts it from the weights, stage 4 is P·Rn, stage 5 adds the two: (W − P·(Pᵀ·W)) + P·Rn
    stage 6 contracts the inputs' last axis against the second axis of stage 5: (a, b, o) ↦ ∑ k, x (a, b, k) · stage5 (o, k)
    stages 7 and 8 spread the bias over the two leading axes, and stage 9 adds it.
  Each stage is read at an index whose coordinates are named, so that the index the stage asks its operand for is again an
  index with named coordinates; then stage 1 is the specification's `projected`, stage 5 its `modified` and stage 9 its
  `layer`, entry by entry. No algebraic law is used: both sides are the same sums of the same products in the same order.
-/
import proofs.«154440_j48490180772375_2_alg».proof.Proof.Gen.ReferenceIdeal.Read
import proofs.«154440_j48490180772375_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## Where each stage reads its operands, in coordinates -/

/-- The transpose reads entry (r, k) of its result at entry (k, r) of the basis. -/
theorem idx_v0_at (r : Fin 8) (k : Fin 4096) : idx_main_v0 (ix2 r k) = ix2 k r :=
  funext fun a => Fin.ext (by match a with | ⟨0, _⟩ => rfl | ⟨1, _⟩ => rfl)

/-- Entry (r, j) of `Pᵀ·W` takes, at `k`, entry (r, k) of the transposed basis … -/
theorem lidx_v1_at (r : Fin 8) (j k : Fin 4096) : lidx_main_v1 (ix2 r j) k = ix2 r k :=
  funext fun a => Fin.ext (by match a with | ⟨0, _⟩ => rfl | ⟨1, _⟩ => rfl)

/-- … and entry (k, j) of the weights. -/
theorem ridx_v1_at (r : Fin 8) (j k : Fin 4096) : ridx_main_v1 (ix2 r j) k = ix2 k j :=
  funext fun a => Fin.ext (by match a with | ⟨0, _⟩ => rfl | ⟨1, _⟩ => rfl)

/-- Entry (o, j) of a product of the basis with an 8 × 4096 array takes, at `r`, entry (o, r) of the basis … -/
theorem lidx_v2_at (o j : Fin 4096) (r : Fin 8) : lidx_main_v2 (ix2 o j) r = ix2 o r :=
  funext fun a => Fin.ext (by match a with | ⟨0, _⟩ => rfl | ⟨1, _⟩ => rfl)

/-- … and entry (r, j) of the other factor. -/
theorem ridx_v2_at (o j : Fin 4096) (r : Fin 8) : ridx_main_v2 (ix2 o j) r = ix2 r j :=
  funext fun a => Fin.ext (by match a with | ⟨0, _⟩ => rfl | ⟨1, _⟩ => rfl)

/-- The same two facts for the product of the basis with the replacement. -/
theorem lidx_v4_at (o j : Fin 4096) (r : Fin 8) : lidx_main_v4 (ix2 o j) r = ix2 o r :=
  funext fun a => Fin.ext (by match a with | ⟨0, _⟩ => rfl | ⟨1, _⟩ => rfl)

theorem ridx_v4_at (o j : Fin 4096) (r : Fin 8) : ridx_main_v4 (ix2 o j) r = ix2 r j :=
  funext fun a => Fin.ext (by match a with | ⟨0, _⟩ => rfl | ⟨1, _⟩ => rfl)

/-- Entry (a, b, o) of the last product takes, at `k`, entry (a, b, k) of the inputs … -/
theorem lidx_v6_at (a : Fin 2) (b : Fin 2048) (o k : Fin 4096) : lidx_main_v6 (ix3 a b o) k = ix3 a b k :=
  funext fun d => Fin.ext (by match d with | ⟨0, _⟩ => rfl | ⟨1, _⟩ => rfl | ⟨2, _⟩ => rfl)

/-- … and entry (o, k) of the modified weights: the contraction runs over their SECOND axis. -/
theorem ridx_v6_at (a : Fin 2) (b : Fin 2048) (o k : Fin 4096) : ridx_main_v6 (ix3 a b o) k = ix2 o k :=
  funext fun d => Fin.ext (by match d with | ⟨0, _⟩ => rfl | ⟨1, _⟩ => rfl)

/-- The two broadcasts together read the bias at the last coordinate. -/
theorem idx_v78_at (a : Fin 2) (b : Fin 2048) (o : Fin 4096) : idx_main_v7 (idx_main_v8 (ix3 a b o)) = ix1 o :=
  funext fun d => Fin.ext (by match d with | ⟨0, _⟩ => rfl)

/-! ## The stages as the specification's functions -/

/-- Stage 1 is `Pᵀ·W`: entry (r, j) is `∑ k, P (k, r) · W (k, j)`. -/
theorem v1_eq (x1 : (⟨S4096x4096, .f32⟩ : BufTy).Contents (Elt Ideal)) (x3 : (⟨S4096x8, .f32⟩ : BufTy).Contents (Elt Ideal)) :
    val_main_v1 (F := Ideal) x1 x3 = Cert.Inject.projected x3 x1 := by
  funext y
  obtain ⟨r, j, rfl⟩ : ∃ (r : Fin 8) (j : Fin 4096), y = ix2 r j := ⟨y 0, y 1, eq_ix2 y⟩
  rw [val_main_v1_apply]
  unfold Cert.Inject.projected
  refine Finset.sum_congr rfl fun k _ => ?_
  rw [val_main_v0_apply, lidx_v1_at, ridx_v1_at, idx_v0_at]

/-- Stage 5 is `(W − P·(Pᵀ·W)) + P·Rn`, entry by entry. -/
theorem v5_eq (x1 : (⟨S4096x4096, .f32⟩ : BufTy).Contents (Elt Ideal)) (x3 : (⟨S4096x8, .f32⟩ : BufTy).Contents (Elt Ideal))
    (x4 : (⟨S8x4096, .f32⟩ : BufTy).Contents (Elt Ideal)) :
    val_main_v5 (F := Ideal) x1 x3 x4 = Cert.Inject.modified x1 x3 (Cert.Inject.projected x3 x1) x4 := by
  funext y
  obtain ⟨o, j, rfl⟩ : ∃ (o j : Fin 4096), y = ix2 o j := ⟨y 0, y 1, eq_ix2 y⟩
  rw [val_main_v5_apply, val_main_v3_apply, val_main_v2_apply, val_main_v4_apply, v1_eq]
  unfold Cert.Inject.modified
  simp only [lidx_v2_at, ridx_v2_at, lidx_v4_at, ridx_v4_at]
  rfl

/-- The result is the layer on the modified weights: entry (a, b, o) is `∑ k, x (a, b, k) · Wm (o, k) + bias (o)`. -/
theorem ref_eq (x0 : (⟨S2x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x8, .f32⟩ : BufTy).Contents (Elt Ideal))
    (x4 : (⟨S8x4096, .f32⟩ : BufTy).Contents (Elt Ideal)) :
    val_main_v9 (F := Ideal) x0 x1 x2 x3 x4
      = Cert.Inject.layer x0 (Cert.Inject.modified x1 x3 (Cert.Inject.projected x3 x1) x4) x2 := by
  funext y
  obtain ⟨a, b, o, rfl⟩ : ∃ (a : Fin 2) (b : Fin 2048) (o : Fin 4096), y = ix3 a b o := ⟨y 0, y 1, y 2, eq_ix3 y⟩
  rw [val_main_v9_apply, val_main_v6_apply, val_main_v8_apply, val_main_v7_apply, v5_eq, idx_v78_at]
  unfold Cert.Inject.layer
  simp only [lidx_v6_at, ridx_v6_at]
  rfl

end Cert.ReferenceIdeal.RefValue

end
-- ==== Proof.lean ====
/-
  A low-rank weight modification followed by a linear layer, as three pipelined kernels, against the same layer
  written with whole-array operations.

  With weights `W` (4096 × 4096), a basis `P` (4096 × 8), a replacement `Rn` (8 × 4096), a bias `b` (4096) and inputs
  `x` (2 × 2048 × 4096), both programs compute
      Wm = (W − P·(Pᵀ·W)) + P·Rn,      out (a, b, o) = ∑ k, x (a, b, k) · Wm (o, k) + bias (o).
  The kernel forms `Pᵀ·W` by accumulating eight row tiles, forms `Wm` tile by tile, and forms the product with the
  inputs (flattened to 4096 rows) by accumulating four tiles of the contracted axis and adding the bias row at the
  last one; the reference takes each product whole. On the extended reals a change of float format is the identity and
  a product accumulated tile by tile is the same finite sum regrouped, which needs only that addition is associative
  and commutative: no entry has to be finite, so the precondition is never opened.

  The three frames are the generated ones (the reference's is its generated run with the result dropped); the
  idealization rewrote nothing; the value claim states both runs' results as one function of the launch arrays:
  the kernel's by reading the three regions' output arrays through the boundaries of its program (`Walk`), the
  reference's by reading its ten operations at an index (`RefSide`).
-/
import proofs.«154440_j48490180772375_2_alg».proof.Defs
import proofs.«154440_j48490180772375_2_alg».proof.Proof.Gen.Kernel
import proofs.«154440_j48490180772375_2_alg».proof.Proof.Gen.Kernel.Frame
import proofs.«154440_j48490180772375_2_alg».proof.Proof.Gen.KernelIdeal
import proofs.«154440_j48490180772375_2_alg».proof.Proof.Gen.KernelIdeal.Frame
import proofs.«154440_j48490180772375_2_alg».proof.Proof.Gen.ReferenceIdeal
import proofs.«154440_j48490180772375_2_alg».proof.Proof.Gen.ReferenceIdeal.Run
import proofs.«154440_j48490180772375_2_alg».proof.Proof.Gen.Pre_finite_inputs
import proofs.«154440_j48490180772375_2_alg».proof.Proof.KRun
import proofs.«154440_j48490180772375_2_alg».proof.Proof.Walk
import proofs.«154440_j48490180772375_2_alg».proof.Proof.RefSide
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer of the launch arrays in their result. -/
theorem algebraic : Cert.algebraic_KernelIdeal_ReferenceIdeal := by
  intro m ρ m' ρ' _ hagree
  refine ⟨fun c => Cert.Inject.layer (Cert.KernelIdeal.Walk.aX m c) (Cert.KernelIdeal.Walk.wmod m c) (Cert.KernelIdeal.Walk.aB m c), ?_, ?_⟩
  · exact (θ_run Cert.KernelIdeal.defs _ _).mono
      (fun _ h c => ⟨(h c).1.trans (Cert.KernelIdeal.Walk.result_eq m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v9_eq _ _ _ _ _).trans (Cert.ReferenceIdeal.RefValue.ref_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
